-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v36) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S128x1024 : Shape := ⟨2, ![128, 1024]⟩
abbrev S1x1024x1024 : Shape := ⟨3, ![1, 1024, 1024]⟩
abbrev S_ : Shape := ⟨0, ![]⟩

class Facts : Prop where
  bcast_S_S128x1024 : S_.BroadcastsInDim S128x1024 (![] : Fin 0 → Fin S128x1024.rank)
  reducesTo_S128x1024_S_d0_1 : S128x1024.ReducesTo [0, 1] S_
  h_S_ : 0 < S_.numel
  bcast_S_S1x1024x1024 : S_.BroadcastsInDim S1x1024x1024 (![] : Fin 0 → Fin S1x1024x1024.rank)
  reducesTo_S1x1024x1024_S_d0_1_2 : S1x1024x1024.ReducesTo [0, 1, 2] S_

variable [Facts]

def fn_part1 {F : FTy → Type} [FloatOps F] (main_arg4 : FVec F S1x1024x1024 .f32) (main_arg5 : FVec F S1x1024x1024 .f32) (main_arg6 : FVec F S1x1024x1024 .f32) (main_v13 : IVec S_ 1) (main_v16 : IVec S1x1024x1024 1) : IVec S_ 1 :=
  let main_c_5 : IVec S_ 1 := constantI S_ 1 1#1
  let main_v17 : IVec S_ 1 := (fun x v => Host.reduce IntOp.andi x v reducesTo_S1x1024x1024_S_d0_1_2 h_S_) main_v16 main_c_5
  let main_v18 : IVec S_ 1 := andi main_v13 main_v17
  let main_v19 : FVec F S1x1024x1024 .f32 := Host.absf main_arg4
  let main_cst_6 : FVec F S_ .f32 := constant S_ .f32 0x7F800000#32
  let main_v20 : FVec F S1x1024x1024 .f32 := broadcastInDim S1x1024x1024 ![] bcast_S_S1x1024x1024 main_cst_6
  let main_v21 : IVec S1x1024x1024 1 := cmpf .olt main_v19 main_v20
  let main_c_7 : IVec S_ 1 := constantI S_ 1 1#1
  let main_v22 : IVec S_ 1 := (fun x v => Host.reduce IntOp.andi x v reducesTo_S1x1024x1024_S_d0_1_2 h_S_) main_v21 main_c_7
  let main_v23 : IVec S_ 1 := andi main_v18 main_v22
  let main_v24 : FVec F S1x1024x1024 .f32 := Host.absf main_arg5
  let main_cst_8 : FVec F S_ .f32 := constant S_ .f32 0x7F800000#32
  let main_v25 : FVec F S1x1024x1024 .f32 := broadcastInDim S1x1024x1024 ![] bcast_S_S1x1024x1024 main_cst_8
  let main_v26 : IVec S1x1024x1024 1 := cmpf .olt main_v24 main_v25
  let main_c_9 : IVec S_ 1 := constantI S_ 1 1#1
  let main_v27 : IVec S_ 1 := (fun x v => Host.reduce IntOp.andi x v reducesTo_S1x1024x1024_S_d0_1_2 h_S_) main_v26 main_c_9
  let main_v28 : IVec S_ 1 := andi main_v23 main_v27
  let main_v29 : FVec F S1x1024x1024 .f32 := Host.absf main_arg6
  let main_cst_10 : FVec F S_ .f32 := constant S_ .f32 0x7F800000#32
  let main_v30 : FVec F S1x1024x1024 .f32 := broadcastInDim S1x1024x1024 ![] bcast_S_S1x1024x1024 main_cst_10
  let main_v31 : IVec S1x1024x1024 1 := cmpf .olt main_v29 main_v30
  let main_c_11 : IVec S_ 1 := constantI S_ 1 1#1
  let main_v32 : IVec S_ 1 := (fun x v => Host.reduce IntOp.andi x v reducesTo_S1x1024x1024_S_d0_1_2 h_S_) main_v31 main_c_11
  let main_v33 : IVec S_ 1 := andi main_v28 main_v32
  main_v33

def fn {F : FTy → Type} [FloatOps F] (main_arg0 : FVec F S128x1024 .f32) (main_arg1 : FVec F S1x1024x1024 .f32) (main_arg2 : FVec F S1x1024x1024 .f32) (main_arg3 : FVec F S1x1024x1024 .f32) (main_arg4 : FVec F S1x1024x1024 .f32) (main_arg5 : FVec F S1x1024x1024 .f32) (main_arg6 : FVec F S1x1024x1024 .f32) : IVec S_ 1 :=
  let main_v0 : FVec F S128x1024 .f32 := Host.absf main_arg0
  let main_cst : FVec F S_ .f32 := constant S_ .f32 0x7F800000#32
  let main_v1 : FVec F S128x1024 .f32 := broadcastInDim S128x1024 ![] bcast_S_S128x1024 main_cst
  let main_v2 : IVec S128x1024 1 := cmpf .olt main_v0 main_v1
  let main_c : IVec S_ 1 := constantI S_ 1 1#1
  let main_v3 : IVec S_ 1 := (fun x v => Host.reduce IntOp.andi x v reducesTo_S128x1024_S_d0_1 h_S_) main_v2 main_c
  let main_v4 : FVec F S1x1024x1024 .f32 := Host.absf main_arg1
  let main_cst_0 : FVec F S_ .f32 := constant S_ .f32 0x7F800000#32
  let main_v5 : FVec F S1x1024x1024 .f32 := broadcastInDim S1x1024x1024 ![] bcast_S_S1x1024x1024 main_cst_0
  let main_v6 : IVec S1x1024x1024 1 := cmpf .olt main_v4 main_v5
  let main_c_1 : IVec S_ 1 := constantI S_ 1 1#1
  let main_v7 : IVec S_ 1 := (fun x v => Host.reduce IntOp.andi x v reducesTo_S1x1024x1024_S_d0_1_2 h_S_) main_v6 main_c_1
  let main_v8 : IVec S_ 1 := andi main_v3 main_v7
  let main_v9 : FVec F S1x1024x1024 .f32 := Host.absf main_arg2
  let main_cst_2 : FVec F S_ .f32 := constant S_ .f32 0x7F800000#32
  let main_v10 : FVec F S1x1024x1024 .f32 := broadcastInDim S1x1024x1024 ![] bcast_S_S1x1024x1024 main_cst_2
  let main_v11 : IVec S1x1024x1024 1 := cmpf .olt main_v9 main_v10
  let main_c_3 : IVec S_ 1 := constantI S_ 1 1#1
  let main_v12 : IVec S_ 1 := (fun x v => Host.reduce IntOp.andi x v reducesTo_S1x1024x1024_S_d0_1_2 h_S_) main_v11 main_c_3
  let main_v13 : IVec S_ 1 := andi main_v8 main_v12
  let main_v14 : FVec F S1x1024x1024 .f32 := Host.absf main_arg3
  let main_cst_4 : FVec F S_ .f32 := constant S_ .f32 0x7F800000#32
  let main_v15 : FVec F S1x1024x1024 .f32 := broadcastInDim S1x1024x1024 ![] bcast_S_S1x1024x1024 main_cst_4
  let main_v16 : IVec S1x1024x1024 1 := cmpf .olt main_v14 main_v15
  fn_part1 (F := F) main_arg4 main_arg5 main_arg6 main_v13 main_v16
-- ==== Kernel.lean ====
abbrev S128x1024 : Shape := ⟨2, ![128, 1024]⟩
abbrev S1x1024x1024 : Shape := ⟨3, ![1, 1024, 1024]⟩
abbrev S1024x1024 : Shape := ⟨2, ![1024, 1024]⟩
abbrev S1x256x1024 : Shape := ⟨3, ![1, 256, 1024]⟩
abbrev S256x1024 : Shape := ⟨2, ![256, 1024]⟩
abbrev S8x1024 : Shape := ⟨2, ![8, 1024]⟩
abbrev S1x1024 : Shape := ⟨2, ![1, 1024]⟩
abbrev S1x512 : Shape := ⟨2, ![1, 512]⟩
abbrev S512 : Shape := ⟨1, ![512]⟩
abbrev S1024x512 : Shape := ⟨2, ![1024, 512]⟩
abbrev S1024 : Shape := ⟨1, ![1024]⟩

abbrev nBuf : Space → Nat
  | .hbm => 9
  | .vmem => 19
  | .smem => 0
  | _ => 0

abbrev bufTy : (tb : Table) → Fin (tcTables nBuf tb) → BufTy
  | .hbm, ⟨0, _⟩ => ⟨S128x1024, .f32⟩
  | .hbm, ⟨1, _⟩ => ⟨S1x1024x1024, .f32⟩
  | .hbm, ⟨2, _⟩ => ⟨S1x1024x1024, .f32⟩
  | .hbm, ⟨3, _⟩ => ⟨S1x1024x1024, .f32⟩
  | .hbm, ⟨4, _⟩ => ⟨S1x1024x1024, .f32⟩
  | .hbm, ⟨5, _⟩ => ⟨S1x1024x1024, .f32⟩
  | .hbm, ⟨6, _⟩ => ⟨S1x1024x1024, .f32⟩
  | .hbm, ⟨7, _⟩ => ⟨S1024x1024, .f32⟩
  | .hbm, ⟨8, _⟩ => ⟨S128x1024, .f32⟩
  | .local _ .vmem, ⟨0, _⟩ => ⟨S1x256x1024, .f32⟩
  | .local _ .vmem, ⟨1, _⟩ => ⟨S1x256x1024, .f32⟩
  | .local _ .vmem, ⟨2, _⟩ => ⟨S1x256x1024, .f32⟩
  | .local _ .vmem, ⟨3, _⟩ => ⟨S1x256x1024, .f32⟩
  | .local _ .vmem, ⟨4, _⟩ => ⟨S1x256x1024, .f32⟩
  | .local _ .vmem, ⟨5, _⟩ => ⟨S1x256x1024, .f32⟩
  | .local _ .vmem, ⟨6, _⟩ => ⟨S1x256x1024, .f32⟩
  | .local _ .vmem, ⟨7, _⟩ => ⟨S1x256x1024, .f32⟩
  | .local _ .vmem, ⟨8, _⟩ => ⟨S1x256x1024, .f32⟩
  | .local _ .vmem, ⟨9, _⟩ => ⟨S1x256x1024, .f32⟩
  | .local _ .vmem, ⟨10, _⟩ => ⟨S1x256x1024, .f32⟩
  | .local _ .vmem, ⟨11, _⟩ => ⟨S1x256x1024, .f32⟩
  | .local _ .vmem, ⟨12, _⟩ => ⟨S256x1024, .f32⟩
  | .local _ .vmem, ⟨13, _⟩ => ⟨S256x1024, .f32⟩
  | .local _ .vmem, ⟨14, _⟩ => ⟨S8x1024, .f32⟩
  | .local _ .vmem, ⟨15, _⟩ => ⟨S8x1024, .f32⟩
  | .local _ .vmem, ⟨16, _⟩ => ⟨S1024x1024, .f32⟩
  | .local _ .vmem, ⟨17, _⟩ => ⟨S8x1024, .f32⟩
  | .local _ .vmem, ⟨18, _⟩ => ⟨S8x1024, .f32⟩
  | _, _ => ⟨S128x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc1_stg0_0 : Ref sig .tc := ⟨.vmem, 14, rfl⟩
abbrev cc1_stg0_1 : Ref sig .tc := ⟨.vmem, 15, rfl⟩
abbrev cc1_stg1_0 : Ref sig .tc := ⟨.vmem, 16, rfl⟩
abbrev cc1_stg2_0 : Ref sig .tc := ⟨.vmem, 17, rfl⟩
abbrev cc1_stg2_1 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc1_sem0_0 : DmaSem sig := 14
abbrev cc1_sem0_1 : DmaSem sig := 15
abbrev cc1_sem1_0 : DmaSem sig := 16
abbrev cc1_sem2_0 : DmaSem sig := 17
abbrev cc1_sem2_1 : DmaSem sig := 18

abbrev nD : Nat := 1
abbrev τ : Topo := Topo.v7x

variable {F : FTy → Type} [FloatOps F]

abbrev grid0 : Pipeline.Grid := ⟨1, ![4], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1x256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev grid1 : Pipeline.Grid := ⟨1, ![16], ![false]⟩

@[reducible] def k1_t1_loop : Scf.Loop 32 :=
  let c0_i32 : BitVec 32 := 0#32
  let c8_i32 : BitVec 32 := 8#32
  let v0 : BitVec 32 := Scalar.addi c0_i32 c8_i32
  let c1_i32 : BitVec 32 := 1#32
  ⟨c0_i32, v0, c1_i32⟩
def k1_off1 (k1_t1 : Fin k1_t1_loop.trips) : Fin 2 → Nat :=
  let c0_i32 : BitVec 32 := 0#32
  let c1_i32 : BitVec 32 := 1#32
  let arg4 : BitVec 32 := Scf.iv c0_i32 c1_i32 k1_t1
  let v2 : Index := Scalar.indexCast arg4
  let c0 : Index := 0#32
  ![v2.toNat, 0]
def k1_off2 (k1_t1 : Fin k1_t1_loop.trips) : Fin 2 → Nat :=
  let c0_i32 : BitVec 32 := 0#32
  let c1_i32 : BitVec 32 := 1#32
  let arg4 : BitVec 32 := Scf.iv c0_i32 c1_i32 k1_t1
  let v26 : Index := Scalar.indexCast arg4
  let c512 : Index := 512#32
  ![v26.toNat, 512]
def k1_off3 (k1_t1 : Fin k1_t1_loop.trips) : Fin 2 → Nat :=
  let c0_i32 : BitVec 32 := 0#32
  let c1_i32 : BitVec 32 := 1#32
  let arg4 : BitVec 32 := Scf.iv c0_i32 c1_i32 k1_t1
  let v51 : Index := Scalar.indexCast arg4
  let c0_13 : Index := 0#32
  ![v51.toNat, 0]
def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S8x1024 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1024x1024 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S8x1024 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

class Facts₀ : Prop where
  inb_S1x256x1024_S1x256x1024_0_0_0 : ∀ a, (![0, 0, 0] : Fin 3 → Nat) a + S1x256x1024.size a ≤ S1x256x1024.size a
  h_S1x256x1024 : 0 < S1x256x1024.numel
  shapeCasts_S1x256x1024_S256x1024 : S1x256x1024.ShapeCasts S256x1024
  inb_S256x1024_S256x1024_0_0 : ∀ a, (![0, 0] : Fin 2 → Nat) a + S256x1024.size a ≤ S256x1024.size a
  h_S256x1024 : 0 < S256x1024.numel
  h_S1x512 : 0 < S1x512.numel
  shapeCasts_S1x512_S512 : S1x512.ShapeCasts S512
  shapeCasts_S512_S1x512 : S512.ShapeCasts S1x512
  inb_S1024x1024_S1024x512_0_0 : ∀ a, (![0, 0] : Fin 2 → Nat) a + S1024x512.size a ≤ S1024x1024.size a
  h_S1024x512 : 0 < S1024x512.numel
  shapeCasts_S1024x512_S1024x512 : S1024x512.ShapeCasts S1024x512
  broadcasts_S1x512_S1024x512 : S1x512.Broadcasts S1024x512
  reduces_S1024x512_S512 : S1024x512.Reduces [0] S512
  inb_S1024x1024_S1024x512_0_512 : ∀ a, (![0, 512] : Fin 2 → Nat) a + S1024x512.size a ≤ S1024x1024.size a
  shapeCasts_S1x1024_S1024 : S1x1024.ShapeCasts S1024
  h_S1x1024 : 0 < S1x1024.numel
  shapeCasts_S1024_S1x1024 : S1024.ShapeCasts S1x1024
  dot_S1x512_S1024x512_S1x1024_1_1_0_0_n_n_wf : DotDims.WF S1x512 S1024x512 S1x1024 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x256x1024.size a ≤ S1x1024x1024.size a
  hwx0_0 : ∀ i : grid0.Coords, EltTy.bits .f32 = 32 ∨ (Rect.block (s := S1x1024x1024) S1x256x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x256x1024.size a ≤ S1x1024x1024.size a
  hwx0_1 : ∀ i : grid0.Coords, EltTy.bits .f32 = 32 ∨ (Rect.block (s := S1x1024x1024) S1x256x1024.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x256x1024.size a ≤ S1x1024x1024.size a
  hwx0_2 : ∀ i : grid0.Coords, EltTy.bits .f32 = 32 ∨ (Rect.block (s := S1x1024x1024) S1x256x1024.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x256x1024.size a ≤ S1x1024x1024.size a
  hwx0_3 : ∀ i : grid0.Coords, EltTy.bits .f32 = 32 ∨ (Rect.block (s := S1x1024x1024) S1x256x1024.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x256x1024.size a ≤ S1x1024x1024.size a
  hwx0_4 : ∀ i : grid0.Coords, EltTy.bits .f32 = 32 ∨ (Rect.block (s := S1x1024x1024) S1x256x1024.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1x256x1024.size a ≤ S1x1024x1024.size a
  hwx0_5 : ∀ i : grid0.Coords, EltTy.bits .f32 = 32 ∨ (Rect.block (s := S1x1024x1024) S1x256x1024.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S256x1024.size a ≤ S1024x1024.size a
  hwx0_6 : ∀ i : grid0.Coords, EltTy.bits .f32 = 32 ∨ (Rect.block (s := S1024x1024) S256x1024.size (cc0_transform_6 i) (hinb0_6 i)).WholeWords (EltTy.packing .f32)
  hrank1 : 0 < grid1.rank
  k1_t1_ok : k1_t1_loop.OK
  k1_off1_inb : ∀ k1_t1 : Fin k1_t1_loop.trips, ∀ a, (k1_off1 k1_t1) a + S1x512.size a ≤ S8x1024.size a
  k1_off2_inb : ∀ k1_t1 : Fin k1_t1_loop.trips, ∀ a, (k1_off2 k1_t1) a + S1x512.size a ≤ S8x1024.size a
  k1_off3_inb : ∀ k1_t1 : Fin k1_t1_loop.trips, ∀ a, (k1_off3 k1_t1) a + S1x1024.size a ≤ S8x1024.size a
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S8x1024.size a ≤ S128x1024.size a
  hwx1_0 : ∀ i : grid1.Coords, EltTy.bits .f32 = 32 ∨ (Rect.block (s := S128x1024) S8x1024.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1024x1024.size a ≤ S1024x1024.size a
  hwx1_1 : ∀ i : grid1.Coords, EltTy.bits .f32 = 32 ∨ (Rect.block (s := S1024x1024) S1024x1024.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S8x1024.size a ≤ S128x1024.size a
  hwx1_2 : ∀ i : grid1.Coords, EltTy.bits .f32 = 32 ∨ (Rect.block (s := S128x1024) S8x1024.size (cc1_transform_2 i) (hinb1_2 i)).WholeWords (EltTy.packing .f32)

variable [Facts₀]

def dot_S1x512_S1024x512_S1x1024_1_1_0_0_n_n : DotDims S1x512 S1024x512 S1x1024 where
  lhsContracting := [1]
  rhsContracting := [1]
  lhsNonContracting := [0]
  rhsNonContracting := [0]
  lhsBatch := []
  rhsBatch := []
  wf := dot_S1x512_S1024x512_S1x1024_1_1_0_0_n_n_wf

abbrev win0_0 : Pipeline.Window sig grid0 :=
  Pipeline.Window.ofSpec (Memref.whole main_arg1) S1x256x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S1x256x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg3) S1x256x1024.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg4) S1x256x1024.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_arg5) S1x256x1024.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_arg6) S1x256x1024.size cc0_transform_5 reads0_5 false false 2 stage0_5 sem0_5
    hrank0 hreads0_5 hinb0_5 nbuf0_5 (Memref.isWhole_whole _) hwx0_5 hstage0_5

abbrev win0_6 : Pipeline.Window sig grid0 :=
  Pipeline.Window.ofSpec (Memref.whole main_v0) S256x1024.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev win1_0 : Pipeline.Window sig grid1 :=
  Pipeline.Window.ofSpec (Memref.whole main_arg0) S8x1024.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v0) S1024x1024.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v1) S8x1024.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

class Facts : Prop extends Facts₀ where

variable [Facts]
-- ==== ReferenceIdeal.lean ====
abbrev S128x1024 : Shape := ⟨2, ![128, 1024]⟩
abbrev S1x1024x1024 : Shape := ⟨3, ![1, 1024, 1024]⟩
abbrev S128x1x1024 : Shape := ⟨3, ![128, 1, 1024]⟩
abbrev S_ : Shape := ⟨0, ![]⟩
abbrev S128x1024x1024 : Shape := ⟨3, ![128, 1024, 1024]⟩

abbrev nBuf : Space → Nat
  | .hbm => 53
  | .vmem => 0
  | .smem => 0
  | _ => 0

abbrev bufTy : (tb : Table) → Fin (tcTables nBuf tb) → BufTy
  | .hbm, ⟨0, _⟩ => ⟨S128x1024, .f32⟩
  | .hbm, ⟨1, _⟩ => ⟨S1x1024x1024, .f32⟩
  | .hbm, ⟨2, _⟩ => ⟨S1x1024x1024, .f32⟩
  | .hbm, ⟨3, _⟩ => ⟨S1x1024x1024, .f32⟩
  | .hbm, ⟨4, _⟩ => ⟨S1x1024x1024, .f32⟩
  | .hbm, ⟨5, _⟩ => ⟨S1x1024x1024, .f32⟩
  | .hbm, ⟨6, _⟩ => ⟨S1x1024x1024, .f32⟩
  | .hbm, ⟨7, _⟩ => ⟨S128x1x1024, .f32⟩
  | .hbm, ⟨8, _⟩ => ⟨S1x1024x1024, .f32⟩
  | .hbm, ⟨9, _⟩ => ⟨S1x1024x1024, .f32⟩
  | .hbm, ⟨10, _⟩ => ⟨S1x1024x1024, .f32⟩
  | .hbm, ⟨11, _⟩ => ⟨S_, .f32⟩
  | .hbm, ⟨12, _⟩ => ⟨S1x1024x1024, .f32⟩
  | .hbm, ⟨13, _⟩ => ⟨S1x1024x1024, .f32⟩
  | .hbm, ⟨14, _⟩ => ⟨S1x1024x1024, .f32⟩
  | .hbm, ⟨15, _⟩ => ⟨S1x1024x1024, .f32⟩
  | .hbm, ⟨16, _⟩ => ⟨S128x1x1024, .f32⟩
  | .hbm, ⟨17, _⟩ => ⟨S128x1x1024, .f32⟩
  | .hbm, ⟨18, _⟩ => ⟨S_, .f32⟩
  | .hbm, ⟨19, _⟩ => ⟨S128x1x1024, .f32⟩
  | .hbm, ⟨20, _⟩ => ⟨S128x1x1024, .f32⟩
  | .hbm, ⟨21, _⟩ => ⟨S_, .f32⟩
  | .hbm, ⟨22, _⟩ => ⟨S128x1x1024, .f32⟩
  | .hbm, ⟨23, _⟩ => ⟨S128x1x1024, .f32⟩
  | .hbm, ⟨24, _⟩ => ⟨S128x1024x1024, .f32⟩
  | .hbm, ⟨25, _⟩ => ⟨S128x1024x1024, .f32⟩
  | .hbm, ⟨26, _⟩ => ⟨S128x1024x1024, .f32⟩
  | .hbm, ⟨27, _⟩ => ⟨S128x1024x1024, .f32⟩
  | .hbm, ⟨28, _⟩ => ⟨S_, .f32⟩
  | .hbm, ⟨29, _⟩ => ⟨S128x1024x1024, .f32⟩
  | .hbm, ⟨30, _⟩ => ⟨S128x1024x1024, .f32⟩
  | .hbm, ⟨31, _⟩ => ⟨S128x1024x1024, .f32⟩
  | .hbm, ⟨32, _⟩ => ⟨S_, .f32⟩
  | .hbm, ⟨33, _⟩ => ⟨S128x1024x1024, .f32⟩
  | .hbm, ⟨34, _⟩ => ⟨S128x1024x1024, .f32⟩
  | .hbm, ⟨35, _⟩ => ⟨S_, .f32⟩
  | .hbm, ⟨36, _⟩ => ⟨S128x1024, .f32⟩
  | .hbm, ⟨37, _⟩ => ⟨S_, .f32⟩
  | .hbm, ⟨38, _⟩ => ⟨S128x1024, .f32⟩
  | .hbm, ⟨39, _⟩ => ⟨S128x1024, .f32⟩
  | .hbm, ⟨40, _⟩ => ⟨S128x1x1024, .f32⟩
  | .hbm, ⟨41, _⟩ => ⟨S128x1024x1024, .f32⟩
  | .hbm, ⟨42, _⟩ => ⟨S128x1024x1024, .f32⟩
  | .hbm, ⟨43, _⟩ => ⟨S128x1024x1024, .f32⟩
  | .hbm, ⟨44, _⟩ => ⟨S_, .f32⟩
  | .hbm, ⟨45, _⟩ => ⟨S128x1024, .f32⟩
  | .hbm, ⟨46, _⟩ => ⟨S128x1x1024, .f32⟩
  | .hbm, ⟨47, _⟩ => ⟨S128x1024x1024, .f32⟩
  | .hbm, ⟨48, _⟩ => ⟨S128x1024x1024, .f32⟩
  | .hbm, ⟨49, _⟩ => ⟨S128x1024x1024, .f32⟩
  | .hbm, ⟨50, _⟩ => ⟨S128x1024x1024, .f32⟩
  | .hbm, ⟨51, _⟩ => ⟨S_, .f32⟩
  | .hbm, ⟨52, _⟩ => ⟨S128x1024, .f32⟩
  | _, _ => ⟨S128x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_cst : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_0 : Ref sig .tc := ⟨.hbm, 18, rfl⟩
abbrev main_v10 : Ref sig .tc := ⟨.hbm, 19, rfl⟩
abbrev main_v11 : Ref sig .tc := ⟨.hbm, 20, rfl⟩
abbrev main_cst_1 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_cst_2 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_cst_3 : Ref sig .tc := ⟨.hbm, 32, rfl⟩
abbrev main_v21 : Ref sig .tc := ⟨.hbm, 33, rfl⟩
abbrev main_v22 : Ref sig .tc := ⟨.hbm, 34, rfl⟩
abbrev main_cst_4 : Ref sig .tc := ⟨.hbm, 35, rfl⟩
abbrev main_v23 : Ref sig .tc := ⟨.hbm, 36, rfl⟩
abbrev main_cst_5 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_cst_6 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_cst_7 : Ref sig .tc := ⟨.hbm, 51, rfl⟩
abbrev main_v36 : Ref sig .tc := ⟨.hbm, 52, rfl⟩

abbrev nD : Nat := 1
abbrev τ : Topo := Topo.v7x

variable {F : FTy → Type} [FloatOps F]

class Facts₀ : Prop where
  shapeCasts_S128x1024_S128x1x1024 : S128x1024.ShapeCasts S128x1x1024
  bcast_S_S1x1024x1024 : S_.BroadcastsInDim S1x1024x1024 (![] : Fin 0 → Fin S1x1024x1024.rank)
  bcast_S_S128x1x1024 : S_.BroadcastsInDim S128x1x1024 (![] : Fin 0 → Fin S128x1x1024.rank)
  bcast_S1x1024x1024_S128x1024x1024_0_1_2 : S1x1024x1024.BroadcastsInDim S128x1024x1024 (![0, 1, 2] : Fin 3 → Fin S128x1024x1024.rank)
  bcast_S128x1x1024_S128x1024x1024_0_1_2 : S128x1x1024.BroadcastsInDim S128x1024x1024 (![0, 1, 2] : Fin 3 → Fin S128x1024x1024.rank)
  bcast_S_S128x1024x1024 : S_.BroadcastsInDim S128x1024x1024 (![] : Fin 0 → Fin S128x1024x1024.rank)
  reducesTo_S128x1024x1024_S128x1024_d1 : S128x1024x1024.ReducesTo [1] S128x1024
  h_S_ : 0 < S_.numel
  bcast_S_S128x1024 : S_.BroadcastsInDim S128x1024 (![] : Fin 0 → Fin S128x1024.rank)
  bcast_S128x1024_S128x1x1024_0_2 : S128x1024.BroadcastsInDim S128x1x1024 (![0, 2] : Fin 2 → Fin S128x1x1024.rank)
  reducesTo_S128x1024x1024_S128x1024_d2 : S128x1024x1024.ReducesTo [2] S128x1024

variable [Facts₀]

class Facts : Prop extends Facts₀ where

variable [Facts]
-- ==== Proof.KernelRun.lean ====
/-
  The idealized kernel's run with its result named. The program is two pallas_calls in a row: the first
  fills an intermediate [1024,1024] array from the six parameter arrays, the second reads that array and
  `data` and fills the [128,1024] result. The generated frame certificate follows the buffer contents
  through the two regions (`Gen.W1` after the first, `Gen.W2` after the second) but states of the final
  memory only that the arguments are unchanged. The same launch theorem over the same two segments
  also gives every unscoped buffer at `Gen.W2`; this module restates it with the result buffer
  `main_v1` read off `Gen.W2` as well.
-/
import proofs.«101975_j82119774699540_2_alg».proof.Proof.Gen.KernelIdeal.Frame

set_option maxRecDepth 16384

noncomputable section

namespace Cert.KernelIdeal.Result

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of @main terminates without a fault; the result buffer ends at what the second
    region's write-backs leave (`Gen.W2` at `main_v1`) and the seven arguments end as launched. -/
theorem run : θ_run defs (onTc (τ := τ) (main (F := F))) ⟨m, fun _ => 0, ρ⟩ (fun r => ∀ c : Dev nD,
      r.2.mem ((c.tc : Thread nD τ).loc main_v1) = W2 m ρ c (Proc.devRef .tc main_v1)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W2 m ρ c b)
    (hfin := fun c s' => by
      iintro ⟨⟨Hh, -⟩, HSI⟩
      unfold StableHlo.held
      imodintro
      iapply (pointsTo_read_all (Pipeline.ucRefs τ sig) (fun b => (((c : Thread nD τ)).1, b)) (W2 m ρ c) s')
      isplitl [Hh] <;> iassumption)
    (hQ := fun s h c =>
      ⟨h c _ (mem_uc main_v1 (by decide)),
       (h c _ (mem_uc main_arg0 (by decide))).trans (W2_main_arg0 m ρ c),
       (h c _ (mem_uc main_arg1 (by decide))).trans (W2_main_arg1 m ρ c),
       (h c _ (mem_uc main_arg2 (by decide))).trans (W2_main_arg2 m ρ c),
       (h c _ (mem_uc main_arg3 (by decide))).trans (W2_main_arg3 m ρ c),
       (h c _ (mem_uc main_arg4 (by decide))).trans (W2_main_arg4 m ρ c),
       (h c _ (mem_uc main_arg5 (by decide))).trans (W2_main_arg5 m ρ c),
       (h c _ (mem_uc main_arg6 (by decide))).trans (W2_main_arg6 m ρ c)⟩)

end Cert.KernelIdeal.Result

end
-- ==== Proof.Spec.lean ====
/-
  The functions both programs compute, on the extended reals.

  For a data entry `d` and a parameter combination `a` (the "base": (ix/iy + la)·(1 + lm) − ox/oy), the score of
  output unit `o` at input position `i` is 1/√((a·σ(d))² + ε), σ the logistic function and ε the value of the f32
  word nearest 1e-7. Along `o` the scores go through a softmax (subtract the column's maximum, exponentiate,
  divide by the column's sum), and the result at `(b, o)` is the sum over `i` of `d(b,i)` times that weight.
  The kernel squares the base first and multiplies by σ(d)², takes a reciprocal square root, and divides the data
  entry, not the exponential, by the column's sum.
-/
import Idealize.ShloMosaic.PureOps.Ideal

noncomputable section

namespace Cert.Softrow

open Idealize.ShloMosaic

/-- The value of the f32 word nearest 1e-7. -/
abbrev eps : EReal := Ideal.ofBits .f32 0x33D6BF95#32
/-- The value of the f32 word of −∞. -/
abbrev negInf : EReal := Ideal.ofBits .f32 0xFF800000#32
/-- The value of the f32 word of 1. -/
abbrev oneV : EReal := Ideal.ofBits .f32 0x3F800000#32
/-- The value of the f32 zero word. -/
abbrev zeroV : EReal := Ideal.ofBits .f32 0x00000000#32

/-- The parameter combination (ix/iy + la)·(1 + lm) − ox/oy. -/
def base (ix iy ox oy la lm : EReal) : EReal := (Ideal.div ix iy + la) * (oneV + lm) - Ideal.div ox oy

/-- The kernel's score from the squared base `q` and the data entry `d`: rsqrt (q·σ(d)² + ε). -/
def scoreK (q d : EReal) : EReal := Ideal.rsqrt (q * (Ideal.logistic d * Ideal.logistic d) + eps)

/-- The reference's score from the base `a` and the data entry `d`: 1 / √((a·σ)·(a·σ) + ε), σ spelt out as 1/(1 + e^(−d)). -/
def scoreR (a d : EReal) : EReal :=
  Ideal.div oneV (Ideal.sqrt (a * Ideal.div oneV (oneV + Ideal.exp (-d)) * (a * Ideal.div oneV (oneV + Ideal.exp (-d))) + eps))

variable {O : Nat}

/-- A column's maximum, folded from −∞. -/
def colMax (z : Fin O → EReal) : EReal := (Finset.univ : Finset (Fin O)).fold max negInf z
/-- A column's shifted exponentials. -/
def colExp (z : Fin O → EReal) (o : Fin O) : EReal := Ideal.exp (z o - colMax z)
/-- Their sum. -/
def colSum (z : Fin O → EReal) : EReal := ∑ o : Fin O, colExp z o

/-- The kernel's term of input position with data entry `d` and score column `z`, at output unit `o`:
    the data entry divided by the column's sum, times the exponential. -/
def termK (d : EReal) (z : Fin O → EReal) (o : Fin O) : EReal := Ideal.div d (colSum z) * colExp z o

/-- The reference's term: the data entry times the softmax weight; the maximum is taken once more against −∞ and the
    sum starts from the zero word's value, as the reference's reductions do. -/
def termR (d : EReal) (z : Fin O → EReal) (o : Fin O) : EReal :=
  d * Ideal.div (Ideal.exp (z o - max negInf (colMax z))) (zeroV + ∑ o' : Fin O, Ideal.exp (z o' - max negInf (colMax z)))

/-! ## A whole row -/

/-- Input position `k` of the first half of a row of 1024. -/
def lo (k : Fin 512) : Fin 1024 := ⟨k.val, by have := k.isLt; omega⟩
/-- Input position `k` of the second half. -/
def hi (k : Fin 512) : Fin 1024 := ⟨512 + k.val, by have := k.isLt; omega⟩

/-- The kernel's result for one data row `d` against the squared-base array `q` (`q o i`), at output unit `o`: the zero
    word's value plus the first half's terms, plus the second half's, in the order the kernel adds them. -/
def rowK (d : Fin 1024 → EReal) (q : Fin 1024 → Fin 1024 → EReal) (o : Fin 1024) : EReal :=
  (zeroV + ∑ k : Fin 512, termK (d (lo k)) (fun o' => scoreK (q o' (lo k)) (d (lo k))) o)
    + ∑ k : Fin 512, termK (d (hi k)) (fun o' => scoreK (q o' (hi k)) (d (hi k))) o

end Cert.Softrow

end
-- ==== Proof.Region0.lean ====
/-
  The first region, read: the [1024,1024] intermediate array ends holding the SQUARE of the parameter combination
  (ix/iy + la)·(1 + lm) − ox/oy, index by index.

  The region runs over four grid points; point `t` reads rows 256t … 256t+255 of each of the six [1,1024,1024]
  parameter arrays (as [1,256,1024] blocks) and writes the same rows of the [1024,1024] result. The body is
  pointwise, so block `t` of the result is the function below restricted to those rows, and the four blocks fill
  the array.
-/
import proofs.«101975_j82119774699540_2_alg».proof.Proof.Gen.KernelIdeal.Frame
import proofs.«101975_j82119774699540_2_alg».proof.Proof.Spec
import Idealize.ShloMosaic.Lib.Pipeline.Value
import Idealize.ShloMosaic.Lib.ValueIdx
import Idealize.ShloMosaic.Lib.ValueLayout

set_option maxRecDepth 16384

noncomputable section

namespace Cert.KernelIdeal.Region0

open Cert.KernelIdeal Cert.KernelIdeal.Gen Cert.Softrow
open Idealize.ShloMosaic Idealize.ShloMosaic.TcCoe Idealize.ShloMosaic.Tactic Idealize.ShloMosaic.ValueIdx
open Idealize.SL Idealize.SL.Sem
open Idealize.ShloMosaic.Pipeline (Dat Cfg Window BodyObligation cellOf)

/-- The squared parameter combination at output unit `o` and input position `i`. -/
def sqBaseAt (a1 a2 a3 a4 a5 a6 : S1x1024x1024.Idx → EReal) (o i : Fin 1024) : EReal :=
  base (a1 (ix3 (0 : Fin 1) o i)) (a2 (ix3 (0 : Fin 1) o i)) (a3 (ix3 (0 : Fin 1) o i)) (a4 (ix3 (0 : Fin 1) o i))
      (a5 (ix3 (0 : Fin 1) o i)) (a6 (ix3 (0 : Fin 1) o i))
    * base (a1 (ix3 (0 : Fin 1) o i)) (a2 (ix3 (0 : Fin 1) o i)) (a3 (ix3 (0 : Fin 1) o i)) (a4 (ix3 (0 : Fin 1) o i))
      (a5 (ix3 (0 : Fin 1) o i)) (a6 (ix3 (0 : Fin 1) o i))

/-- The array the region leaves. -/
def sqBaseArr (a1 a2 a3 a4 a5 a6 : S1x1024x1024.Idx → EReal) : S1024x1024.Idx → EReal :=
  fun j => sqBaseAt a1 a2 a3 a4 a5 a6 (j 0) (j 1)

/-- The body's payload at row `p`, column `q` of the block: the squared combination of the six loaded blocks there. -/
theorem pay_apply (x0 x1 x2 x3 x4 x5 : FVec Ideal S1x256x1024 .f32) (p : Fin 256) (q : Fin 1024) :
    k0_pay1 (F := Ideal) x0 x1 x2 x3 x4 x5 (ix2 p q)
      = base (x0 (ix3 (0 : Fin 1) p q)) (x1 (ix3 (0 : Fin 1) p q)) (x2 (ix3 (0 : Fin 1) p q)) (x3 (ix3 (0 : Fin 1) p q))
            (x4 (ix3 (0 : Fin 1) p q)) (x5 (ix3 (0 : Fin 1) p q))
        * base (x0 (ix3 (0 : Fin 1) p q)) (x1 (ix3 (0 : Fin 1) p q)) (x2 (ix3 (0 : Fin 1) p q)) (x3 (ix3 (0 : Fin 1) p q))
            (x4 (ix3 (0 : Fin 1) p q)) (x5 (ix3 (0 : Fin 1) p q)) := by
  simp only [k0_pay1, mulf, subf, addf, divf, broadcast, shapeCast_1ab_ab_apply, base, Ideal.mulf_def, Ideal.subf_def,
    Ideal.addf_def, Ideal.divf_def]
  rfl

theorem hz2 : (![0, 0] : Fin 2 → Nat) = fun _ => 0 := funext fun a => by fin_cases a <;> rfl
theorem hz3 : (![0, 0, 0] : Fin 3 → Nat) = fun _ => 0 := funext fun a => by fin_cases a <;> rfl

/-- The printed index maps over the grid: every window's block index is (0, t, 0), resp. (t, 0). -/
theorem idx_facts : ∀ t : Fin cfg0.N,
    (win0_0.index t (0 : Fin 3) = 0 ∧ win0_0.index t (1 : Fin 3) = t.val ∧ win0_0.index t (2 : Fin 3) = 0)
    ∧ (win0_1.index t (0 : Fin 3) = 0 ∧ win0_1.index t (1 : Fin 3) = t.val ∧ win0_1.index t (2 : Fin 3) = 0)
    ∧ (win0_2.index t (0 : Fin 3) = 0 ∧ win0_2.index t (1 : Fin 3) = t.val ∧ win0_2.index t (2 : Fin 3) = 0)
    ∧ (win0_3.index t (0 : Fin 3) = 0 ∧ win0_3.index t (1 : Fin 3) = t.val ∧ win0_3.index t (2 : Fin 3) = 0)
    ∧ (win0_4.index t (0 : Fin 3) = 0 ∧ win0_4.index t (1 : Fin 3) = t.val ∧ win0_4.index t (2 : Fin 3) = 0)
    ∧ (win0_5.index t (0 : Fin 3) = 0 ∧ win0_5.index t (1 : Fin 3) = t.val ∧ win0_5.index t (2 : Fin 3) = 0)
    ∧ (win0_6.index t (0 : Fin 2) = t.val ∧ win0_6.index t (1 : Fin 2) = 0) :=
  (by decide +kernel : ∀ t : Fin grid0.N, _)

section
variable (V : (c : Dev nD) → (b : Ref sig .tc) → Buf (Elt Ideal) ((c : Thread nD τ).loc b))

/-- What point `t` writes back is block `t` of the squared combination of the six parameter arrays as the region finds them. -/
theorem flushed_eq (c : Dev nD) (t : Fin cfg0.N) :
    (dat0 V c).flushed 6 t = ((cfg0.win 6).blk t).view.read (Elt Ideal)
      (sqBaseArr (V c main_arg1) (V c main_arg2) (V c main_arg3) (V c main_arg4) (V c main_arg5) (V c main_arg6)) := by
  show (cfg0.win 6).cut (grid0.coords t) ((dat0 V c).after 6 t) = _
  rw [after0_6]
  unfold out0_6
  rw [View.canon_unit_zero hz2]
  simp only [View.ld_unit_zero (S := S1x256x1024) hz3]
  obtain ⟨⟨e00, e01, e02⟩, ⟨e10, e11, e12⟩, ⟨e20, e21, e22⟩, ⟨e30, e31, e32⟩, ⟨e40, e41, e42⟩, ⟨e50, e51, e52⟩, e60, e61⟩ := idx_facts t
  funext y
  obtain ⟨p, q, rfl⟩ : ∃ (p : Fin 256) (q : Fin 1024), y = ix2 p q := ⟨y 0, y 1, eq_ix2 y⟩
  refine (pay_apply (iblk0 V c 0 t) (iblk0 V c 1 t) (iblk0 V c 2 t) (iblk0 V c 3 t) (iblk0 V c 4 t) (iblk0 V c 5 t) p q).trans ?_
  let E : S1024x1024.Idx := ((cfg0.win 6).blk t).view.emb (ix2 p q)
  have h0 : iblk0 V c 0 t (ix3 (0 : Fin 1) p q) = V c main_arg1 (ix3 (0 : Fin 1) (E 0) (E 1)) := by
    show V c main_arg1 _ = V c main_arg1 _
    congr 1
    funext a
    apply Fin.ext
    match a with
    | ⟨0, _⟩ => show win0_0.index t (0 : Fin 3) * 1 + 1 * 0 = 0; omega
    | ⟨1, _⟩ => show win0_0.index t (1 : Fin 3) * 256 + 1 * p.val = win0_6.index t (0 : Fin 2) * 256 + 1 * p.val; omega
    | ⟨2, _⟩ => show win0_0.index t (2 : Fin 3) * 1024 + 1 * q.val = win0_6.index t (1 : Fin 2) * 1024 + 1 * q.val; omega
  have h1 : iblk0 V c 1 t (ix3 (0 : Fin 1) p q) = V c main_arg2 (ix3 (0 : Fin 1) (E 0) (E 1)) := by
    show V c main_arg2 _ = V c main_arg2 _
    congr 1
    funext a
    apply Fin.ext
    match a with
    | ⟨0, _⟩ => show win0_1.index t (0 : Fin 3) * 1 + 1 * 0 = 0; omega
    | ⟨1, _⟩ => show win0_1.index t (1 : Fin 3) * 256 + 1 * p.val = win0_6.index t (0 : Fin 2) * 256 + 1 * p.val; omega
    | ⟨2, _⟩ => show win0_1.index t (2 : Fin 3) * 1024 + 1 * q.val = win0_6.index t (1 : Fin 2) * 1024 + 1 * q.val; omega
  have h2 : iblk0 V c 2 t (ix3 (0 : Fin 1) p q) = V c main_arg3 (ix3 (0 : Fin 1) (E 0) (E 1)) := by
    show V c main_arg3 _ = V c main_arg3 _
    congr 1
    funext a
    apply Fin.ext
    match a with
    | ⟨0, _⟩ => show win0_2.index t (0 : Fin 3) * 1 + 1 * 0 = 0; omega
    | ⟨1, _⟩ => show win0_2.index t (1 : Fin 3) * 256 + 1 * p.val = win0_6.index t (0 : Fin 2) * 256 + 1 * p.val; omega
    | ⟨2, _⟩ => show win0_2.index t (2 : Fin 3) * 1024 + 1 * q.val = win0_6.index t (1 : Fin 2) * 1024 + 1 * q.val; omega
  have h3 : iblk0 V c 3 t (ix3 (0 : Fin 1) p q) = V c main_arg4 (ix3 (0 : Fin 1) (E 0) (E 1)) := by
    show V c main_arg4 _ = V c main_arg4 _
    congr 1
    funext a
    apply Fin.ext
    match a with
    | ⟨0, _⟩ => show win0_3.index t (0 : Fin 3) * 1 + 1 * 0 = 0; omega
    | ⟨1, _⟩ => show win0_3.index t (1 : Fin 3) * 256 + 1 * p.val = win0_6.index t (0 : Fin 2) * 256 + 1 * p.val; omega
    | ⟨2, _⟩ => show win0_3.index t (2 : Fin 3) * 1024 + 1 * q.val = win0_6.index t (1 : Fin 2) * 1024 + 1 * q.val; omega
  have h4 : iblk0 V c 4 t (ix3 (0 : Fin 1) p q) = V c main_arg5 (ix3 (0 : Fin 1) (E 0) (E 1)) := by
    show V c main_arg5 _ = V c main_arg5 _
    congr 1
    funext a
    apply Fin.ext
    match a with
    | ⟨0, _⟩ => show win0_4.index t (0 : Fin 3) * 1 + 1 * 0 = 0; omega
    | ⟨1, _⟩ => show win0_4.index t (1 : Fin 3) * 256 + 1 * p.val = win0_6.index t (0 : Fin 2) * 256 + 1 * p.val; omega
    | ⟨2, _⟩ => show win0_4.index t (2 : Fin 3) * 1024 + 1 * q.val = win0_6.index t (1 : Fin 2) * 1024 + 1 * q.val; omega
  have h5 : iblk0 V c 5 t (ix3 (0 : Fin 1) p q) = V c main_arg6 (ix3 (0 : Fin 1) (E 0) (E 1)) := by
    show V c main_arg6 _ = V c main_arg6 _
    congr 1
    funext a
    apply Fin.ext
    match a with
    | ⟨0, _⟩ => show win0_5.index t (0 : Fin 3) * 1 + 1 * 0 = 0; omega
    | ⟨1, _⟩ => show win0_5.index t (1 : Fin 3) * 256 + 1 * p.val = win0_6.index t (0 : Fin 2) * 256 + 1 * p.val; omega
    | ⟨2, _⟩ => show win0_5.index t (2 : Fin 3) * 1024 + 1 * q.val = win0_6.index t (1 : Fin 2) * 1024 + 1 * q.val; omega
  rw [h0, h1, h2, h3, h4, h5]
  rfl

/-- An index of the array is in point `t`'s block iff each coordinate is in the block's range on its axis. -/
theorem mem_blk (t : Fin cfg0.N) (i : S1024x1024.Idx) :
    i ∈ ((cfg0.win 6).blk t).view.set ↔ ∀ a : Fin 2, win0_6.index t a * S256x1024.size a ≤ (i a).val ∧ (i a).val < win0_6.index t a * S256x1024.size a + S256x1024.size a := by
  show i ∈ ((View.whole main_v0).slice (win0_6.rect t)).set ↔ _
  rw [View.set_slice_whole, Rect.mem_set_unit]
  exact Iff.rfl

/-- Row `r` of the array lies in the block of point `r / 256`. -/
theorem cover (i : S1024x1024.Idx) : ∃ t : Fin cfg0.N, (cfg0.win 6).flush t = true ∧ i ∈ ((cfg0.win 6).blk t).view.set := by
  have hN : cfg0.N = 4 := N_0
  have hi0 : (i 0).val < 1024 := (i 0).isLt
  have hi1 : (i 1).val < 1024 := (i 1).isLt
  let t : Fin cfg0.N := ⟨(i 0).val / 256, by rw [hN]; omega⟩
  obtain ⟨-, -, -, -, -, -, e60, e61⟩ := idx_facts t
  have ht : t.val = (i 0).val / 256 := rfl
  refine ⟨t, flush0_6 t, ?_⟩
  rw [mem_blk]
  intro a
  match a with
  | ⟨0, _⟩ => show win0_6.index t (0 : Fin 2) * 256 ≤ (i 0).val ∧ (i 0).val < win0_6.index t (0 : Fin 2) * 256 + 256; omega
  | ⟨1, _⟩ => show win0_6.index t (1 : Fin 2) * 1024 ≤ (i 1).val ∧ (i 1).val < win0_6.index t (1 : Fin 2) * 1024 + 1024; omega

/-- The intermediate array after the region: the squared combination of the parameter arrays, everywhere. -/
theorem final (c : Dev nD) :
    (dat0 V c).arrAt 6 cfg0.N
      = sqBaseArr (V c main_arg1) (V c main_arg2) (V c main_arg3) (V c main_arg4) (V c main_arg5) (V c main_arg6) :=
  (dat0 V c).arrAt_eq_of_cover 6 _ (fun t _ => flushed_eq V c t) cover

end

end Cert.KernelIdeal.Region0

end
-- ==== Proof.LibMatmulNT.lean ====
/-
  A matrix product with the right operand transposed, read at an index on the extended reals.

  For `A : [M, K]` and `B : [N, K]`, a product that contracts the LAST axis of both operands (dimension numbers
  `contracting [1] × [1]`, `non-contracting [0] × [0]`, no batch axes: `A · Bᵀ`, what `lax.dot_general` with
  `(((1,), (1,)), ((), ()))` lowers to) into a zero accumulator is, at `(i, j)`, the finite sum
  `Σ_k A[i, k] · B[j, k]` over `k : Fin K`. Stated for ANY record with those dimension numbers, whatever the extents
  and the operands' float formats, so that it applies to a printed record by its six list fields (each `rfl`).
-/
import Idealize.ShloMosaic.Lib.ValueIdx
import Idealize.ShloMosaic.PureOps.Ideal.Laws

noncomputable section

namespace Cert.LibMatmulNT

open Idealize.ShloMosaic Idealize.ShloMosaic.ValueIdx

variable {M N K : Nat}

/-- Two coordinates of one index at equal positions are equal, however the positions are spelt. -/
theorem coord_congr {s : Shape} (j : s.Idx) (a b : Nat) (ha : a < s.rank) (hb : b < s.rank) (e : a = b) :
    (j ⟨a, ha⟩).val = (j ⟨b, hb⟩).val := by
  subst e; rfl

/-- The left operand's row is the result's row. -/
theorem lhsIdx_row (d : DotDims ⟨2, ![M, K]⟩ ⟨2, ![N, K]⟩ ⟨2, ![M, N]⟩)
    (hlb : d.lhsBatch = []) (hln : d.lhsNonContracting = [0])
    (j : (⟨2, ![M, N]⟩ : Shape).Idx) (k : d.contr.Idx) : (d.lhsIdx j k 0).val = (j 0).val := by
  unfold DotDims.lhsIdx
  rw [dif_neg (by rw [hlb]; exact List.not_mem_nil), dif_pos (by rw [hln]; exact List.mem_singleton.mpr rfl)]
  rw [Fin.val_cast]
  exact coord_congr j _ 0 _ (by show 0 < 2; omega) (by rw [hlb, hln]; rfl)

/-- The right operand's row is the result's column. -/
theorem rhsIdx_row (d : DotDims ⟨2, ![M, K]⟩ ⟨2, ![N, K]⟩ ⟨2, ![M, N]⟩)
    (hlb : d.lhsBatch = []) (hrb : d.rhsBatch = []) (hln : d.lhsNonContracting = [0]) (hrn : d.rhsNonContracting = [0])
    (j : (⟨2, ![M, N]⟩ : Shape).Idx) (k : d.contr.Idx) : (d.rhsIdx j k 0).val = (j 1).val := by
  unfold DotDims.rhsIdx
  rw [dif_neg (by rw [hrb]; exact List.not_mem_nil), dif_pos (by rw [hrn]; exact List.mem_singleton.mpr rfl)]
  rw [Fin.val_cast]
  exact coord_congr j _ 1 _ (by show 1 < 2; omega) (by rw [hlb, hln, hrn]; rfl)

/-- The contraction ranges over one axis, of extent `K`. -/
theorem contr_rank (d : DotDims ⟨2, ![M, K]⟩ ⟨2, ![N, K]⟩ ⟨2, ![M, N]⟩) (hlc : d.lhsContracting = [1]) :
    d.contr.rank = 1 := by
  rw [d.rank_contr, hlc]; rfl

theorem contr_size (d : DotDims ⟨2, ![M, K]⟩ ⟨2, ![N, K]⟩ ⟨2, ![M, N]⟩) (hlc : d.lhsContracting = [1]) :
    d.contr.size ⟨0, by rw [contr_rank d hlc]; exact Nat.one_pos⟩ = K := by
  rw [d.size_contr 0 (by rw [hlc]; exact Nat.one_pos), List.getElem_of_eq hlc]
  rfl

/-- `A · Bᵀ` into a zero accumulator, at `(i, j)`, is `Σ_k A[i, k] · B[j, k]`. -/
theorem matmul_nt_apply {φ₁ φ₂ : FTy} (d : DotDims ⟨2, ![M, K]⟩ ⟨2, ![N, K]⟩ ⟨2, ![M, N]⟩)
    (hlc : d.lhsContracting = [1]) (hrc : d.rhsContracting = [1])
    (hln : d.lhsNonContracting = [0]) (hrn : d.rhsNonContracting = [0])
    (hlb : d.lhsBatch = []) (hrb : d.rhsBatch = [])
    (prec : Option ContractPrecision) (A : FVec Ideal ⟨2, ![M, K]⟩ φ₁) (B : FVec Ideal ⟨2, ![N, K]⟩ φ₂)
    (i : Fin M) (j : Fin N) :
    matmul d prec A B (constant ⟨2, ![M, N]⟩ .f32 0x00000000#32) (ix2 i j) = ∑ k : Fin K, A (ix2 i k) * B (ix2 j k) := by
  have hr := contr_rank d hlc
  have hs := contr_size d hlc
  simp only [matmul]
  rw [Ideal.matmul_constant_zero_apply, ← Equiv.sum_comp (contrEquiv1 d K hr hs).symm]
  refine Finset.sum_congr rfl fun k _ => ?_
  have hk := contrEquiv1_symm_val d K hr hs k
  have el : d.lhsIdx (ix2 i j) ((contrEquiv1 d K hr hs).symm k) = ix2 i k := funext fun a => Fin.ext (by
    match a with
    | ⟨0, _⟩ => exact lhsIdx_row d hlb hln _ _
    | ⟨1, _⟩ => exact (d.lhsIdx_val_of_single hlc _ _).trans hk)
  have er : d.rhsIdx (ix2 i j) ((contrEquiv1 d K hr hs).symm k) = ix2 j k := funext fun a => Fin.ext (by
    match a with
    | ⟨0, _⟩ => exact rhsIdx_row d hlb hrb hln hrn _ _
    | ⟨1, _⟩ => exact (d.rhsIdx_val_of_single hrc _ _).trans hk)
  rw [el, er]

end Cert.LibMatmulNT

end
-- ==== Proof.RowPayload.lean ====
/-
  One row of the second region's body, read at an index on the extended reals.

  The body handles a row of `data` in two halves of 512 input positions. For a half `v : [1,512]` of the row and
  the matching column half `B : [1024,512]` of the squared-base array it forms the score tile
  rsqrt (B·σ(v)² + ε), the tile of shifted exponentials exp (score − column maximum), the row of column sums,
  and the product (v / sums) · expᵀ, a [1,1024] row. This module names those four stages, shows that the generated
  payload terms are built from them (by unfolding), and reads each stage at an index.
-/
import proofs.«101975_j82119774699540_2_alg».proof.Proof.Gen.KernelIdeal.Skeleton
import proofs.«101975_j82119774699540_2_alg».proof.Proof.Spec
import proofs.«101975_j82119774699540_2_alg».proof.Proof.LibMatmulNT
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Row

open Cert.KernelIdeal Cert.KernelIdeal.Gen Idealize.ShloMosaic Idealize.ShloMosaic.ValueIdx Cert.Softrow

/-- The score tile of a half-row `v` against the column half `B`. -/
def scoresT (v : FVec Ideal S1x512 .f32) (B : FVec Ideal S1024x512 .f32) : FVec Ideal S1024x512 .f32 :=
  rsqrt (addf (mulf (shapeCast S1024x512 B shapeCasts_S1024x512_S1024x512)
      (broadcastTo S1024x512 (shapeCast S1x512 (mulf (logistic (shapeCast S512 v shapeCasts_S1x512_S512)) (logistic (shapeCast S512 v shapeCasts_S1x512_S512))) shapeCasts_S512_S1x512) broadcasts_S1x512_S1024x512))
    (broadcast S1024x512 (Scalar.ofBits .f32 0x33D6BF95#32)))

/-- The shifted exponentials of a score tile: each column minus its maximum, exponentiated. -/
def expT (z : FVec Ideal S1024x512 .f32) : FVec Ideal S1024x512 .f32 :=
  exp (subf z (broadcastTo S1024x512 (shapeCast S1x512 (multiReduction .maximumf [0] S512 z 0xFF800000#32 reduces_S1024x512_S512 (.inl rfl) rfl) shapeCasts_S512_S1x512) broadcasts_S1x512_S1024x512))

/-- The column sums of a tile, as a row. -/
def sumT (e : FVec Ideal S1024x512 .f32) : FVec Ideal S1x512 .f32 :=
  shapeCast S1x512 (multiReduction .add [0] S512 e 0x00000000#32 reduces_S1024x512_S512 (.inl rfl) rfl) shapeCasts_S512_S1x512

/-- A half-row's contribution to the output row: (v / sums) · expᵀ. -/
def halfT (v : FVec Ideal S1x512 .f32) (B : FVec Ideal S1024x512 .f32) : FVec Ideal S1x1024 .f32 :=
  matmul dot_S1x512_S1024x512_S1x1024_1_1_0_0_n_n none
    (divf (shapeCast S1x512 (shapeCast S512 v shapeCasts_S1x512_S512) shapeCasts_S512_S1x512) (sumT (expT (scoresT v B))))
    (expT (scoresT v B)) (constant S1x1024 .f32 0x00000000#32)

/-- The first half's payload is the zero row plus the first half's contribution. -/
theorem pay2_eq (v3 : FVec Ideal S1x512 .f32) (v8 : FVec Ideal S1024x512 .f32) :
    k1_pay2 (F := Ideal) v3 v8 = addf (broadcast S1x1024 (Scalar.ofBits .f32 0x00000000#32)) (halfT v3 v8) := rfl

/-- The stored row is the first half's payload plus the second half's contribution, cast to a vector and back. -/
theorem pay1_eq (acc : FVec Ideal S1x1024 .f32) (v27 : FVec Ideal S1x512 .f32) (v32 : FVec Ideal S1024x512 .f32) :
    k1_pay1 (F := Ideal) acc (k1_pay3 v27) (k1_pay4 v27 v32) (k1_pay5 v27 v32)
      = shapeCast S1x1024 (shapeCast S1024 (addf acc (halfT v27 v32)) shapeCasts_S1x1024_S1024) shapeCasts_S1024_S1x1024 := rfl

/-! ## The stages at an index -/

/-- The index the reduction over the tile's first axis inserts at row `o` of column `k`. -/
theorem lift_col (k : Fin 512) (o : Fin 1024) :
    (reduces_S1024x512_S512 : S1024x512.Reduces [0] S512).lift (ix1 k) o = ix2 o k :=
  funext fun a => Fin.ext (by match a with | ⟨0, _⟩ => rfl | ⟨1, _⟩ => rfl)

/-- A score: rsqrt (B(o,k)·σ(v(k))² + ε). -/
theorem scoresT_apply (v : FVec Ideal S1x512 .f32) (B : FVec Ideal S1024x512 .f32) (o : Fin 1024) (k : Fin 512) :
    scoresT v B (ix2 o k) = scoreK (B (ix2 o k)) (v (ix2 (0 : Fin 1) k)) := by
  simp only [scoresT, scoreK, rsqrt, addf, mulf, logistic, broadcast, shapeCast_self, broadcastTo_1b_ab_apply,
    shapeCast_a_1a_apply, shapeCast_1a_a_apply, Ideal.rsqrt_def, Ideal.logistic_def, Ideal.mulf_def, Ideal.addf_def]
  rfl

/-- The column maximum of a tile at column `k`, as a row entry. -/
theorem colmax_apply (z : FVec Ideal S1024x512 .f32) (k : Fin 512) :
    shapeCast S1x512 (multiReduction .maximumf [0] S512 z 0xFF800000#32 reduces_S1024x512_S512 (.inl rfl) rfl) shapeCasts_S512_S1x512 (ix2 (0 : Fin 1) k)
      = colMax (fun o : Fin 1024 => z (ix2 o k)) := by
  rw [shapeCast_a_1a_apply]
  refine (Ideal.multiReduction_maximumf_single z 0xFF800000#32 reduces_S1024x512_S512 (.inl rfl) rfl (ix1 k)).trans ?_
  unfold colMax
  refine congrArg (fun f : Fin 1024 → EReal => (Finset.univ : Finset (Fin 1024)).fold max negInf f) (funext fun o => ?_)
  exact congrArg z (lift_col k o)

/-- A shifted exponential. -/
theorem expT_apply (z : FVec Ideal S1024x512 .f32) (o : Fin 1024) (k : Fin 512) :
    expT z (ix2 o k) = colExp (fun o' : Fin 1024 => z (ix2 o' k)) o := by
  unfold expT colExp
  show Ideal.exp (z (ix2 o k) - broadcastTo S1024x512 _ broadcasts_S1x512_S1024x512 (ix2 o k)) = _
  rw [broadcastTo_1b_ab_apply, colmax_apply]

/-- A column sum. -/
theorem sumT_apply (e : FVec Ideal S1024x512 .f32) (k : Fin 512) :
    sumT e (ix2 (0 : Fin 1) k) = ∑ o : Fin 1024, e (ix2 o k) := by
  unfold sumT
  rw [shapeCast_a_1a_apply]
  refine (Ideal.multiReduction_add_single e 0x00000000#32 reduces_S1024x512_S512 (.inl rfl) rfl (ix1 k)).trans ?_
  exact Finset.sum_congr rfl fun o _ => congrArg e (lift_col k o)

/-- The score column of input position `k` of a half-row. -/
def scoreCol (v : FVec Ideal S1x512 .f32) (B : FVec Ideal S1024x512 .f32) (k : Fin 512) : Fin 1024 → EReal :=
  fun o => scoreK (B (ix2 o k)) (v (ix2 (0 : Fin 1) k))

/-- A half-row's contribution at output unit `o`: the sum over its 512 positions of the kernel's term. -/
theorem halfT_apply (v : FVec Ideal S1x512 .f32) (B : FVec Ideal S1024x512 .f32) (o : Fin 1024) :
    halfT v B (ix2 (0 : Fin 1) o) = ∑ k : Fin 512, termK (v (ix2 (0 : Fin 1) k)) (scoreCol v B k) o := by
  unfold halfT
  rw [Cert.LibMatmulNT.matmul_nt_apply _ rfl rfl rfl rfl rfl rfl]
  refine Finset.sum_congr rfl fun k _ => ?_
  unfold termK
  have hz : (fun o' : Fin 1024 => scoresT v B (ix2 o' k)) = scoreCol v B k := funext fun o' => scoresT_apply v B o' k
  have he : ∀ o' : Fin 1024, expT (scoresT v B) (ix2 o' k) = colExp (scoreCol v B k) o' := fun o' => by
    rw [expT_apply, hz]
  rw [he o]
  refine congrArg (· * colExp (scoreCol v B k) o) ?_
  show Ideal.div (shapeCast S1x512 (shapeCast S512 v shapeCasts_S1x512_S512) shapeCasts_S512_S1x512 (ix2 (0 : Fin 1) k)) (sumT (expT (scoresT v B)) (ix2 (0 : Fin 1) k)) = _
  rw [shapeCast_a_1a_apply, shapeCast_1a_a_apply, sumT_apply]
  unfold colSum
  exact congrArg (Ideal.div (v (ix2 (0 : Fin 1) k))) (Finset.sum_congr rfl fun o' _ => he o')

/-- The stored row at output unit `o`: the zero word's value plus the first half's terms, plus the second half's. -/
theorem row_apply (v3 v27 : FVec Ideal S1x512 .f32) (v8 v32 : FVec Ideal S1024x512 .f32) (u : Fin 1) (o : Fin 1024) :
    k1_pay1 (F := Ideal) (k1_pay2 v3 v8) (k1_pay3 v27) (k1_pay4 v27 v32) (k1_pay5 v27 v32) (ix2 u o)
      = (zeroV + ∑ k : Fin 512, termK (v3 (ix2 (0 : Fin 1) k)) (scoreCol v3 v8 k) o)
        + ∑ k : Fin 512, termK (v27 (ix2 (0 : Fin 1) k)) (scoreCol v27 v32 k) o := by
  rw [pay1_eq, pay2_eq, shapeCast_a_1a_apply, shapeCast_1a_a_apply]
  show (Ideal.ofBits .f32 0x00000000#32 + halfT v3 v8 (ix2 (0 : Fin 1) o)) + halfT v27 v32 (ix2 (0 : Fin 1) o) = _
  rw [halfT_apply, halfT_apply]

end Cert.KernelIdeal.Row

end
-- ==== Proof.Region1.lean ====
/-
  The second region's body, as a function of its two input blocks.

  At a grid point the body sees an [8,1024] block of `data` and the whole [1024,1024] squared-base array, and writes
  an [8,1024] block of the result one row per trip of its loop: trip `k` stores, at row `k`, the kernel's row function
  (`Softrow.rowK`) of row `k` of the data block. Every store's payload is therefore the same function of the
  buffer index, and the eight stores tile the buffer; so the buffer ends holding that function everywhere.
-/
import proofs.«101975_j82119774699540_2_alg».proof.Proof.Gen.KernelIdeal.Frame
import proofs.«101975_j82119774699540_2_alg».proof.Proof.RowPayload
import Idealize.ShloMosaic.Lib.Pipeline.Value

set_option maxRecDepth 16384

noncomputable section

namespace Cert.KernelIdeal.Region1

open Cert.KernelIdeal Cert.KernelIdeal.Gen Cert.KernelIdeal.Row Cert.Softrow
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)

/-- What the body leaves at index `y` of the output block: the row function of row `y 0` of the data block `x0`
    against the array `x1`, at output unit `y 1`. -/
def blockFn (x0 : FVec Ideal S8x1024 .f32) (x1 : FVec Ideal S1024x1024 .f32) : S8x1024.Idx → EReal :=
  fun y => rowK (fun i => x0 (ix2 (y 0) i)) (fun o i => x1 (ix2 o i)) (y 1)

/-- The same with the two coordinates named. -/
theorem blockFn_apply (x0 : FVec Ideal S8x1024 .f32) (x1 : FVec Ideal S1024x1024 .f32) (y : S8x1024.Idx)
    (r : Fin 8) (o : Fin 1024) (h0 : (y 0).val = r.val) (h1 : (y 1).val = o.val) :
    blockFn x0 x1 y = rowK (fun i => x0 (ix2 r i)) (fun o' i => x1 (ix2 o' i)) o := by
  have e0 : y 0 = r := Fin.ext h0
  have e1 : y 1 = o := Fin.ext h1
  unfold blockFn
  rw [e0, e1]

/-- Trip `k` of the loop addresses row `k`. -/
theorem row_of_trip : ∀ k : Fin k1_t1_loop.trips, (Scalar.indexCast (Scf.iv 0#32 1#32 k.val)).toNat = k.val := by
  decide +kernel

/-- A store's payload, over loads at row `r` of the data block (first and second half) and of the two column halves of
    the array, is the row function of that row. -/
theorem piece_val (x0 : FVec Ideal S8x1024 .f32) (x1 : FVec Ideal S1024x1024 .f32) (r : Fin 8)
    (off1 off2 : Fin 2 → Nat)
    (i1 : ∀ a, off1 a + S1x512.size a ≤ S8x1024.size a) (i2 : ∀ a, off2 a + S1x512.size a ≤ S8x1024.size a)
    (j1 : ∀ a, (![0, 0] : Fin 2 → Nat) a + S1024x512.size a ≤ S1024x1024.size a)
    (j2 : ∀ a, (![0, 512] : Fin 2 → Nat) a + S1024x512.size a ≤ S1024x1024.size a)
    (h10 : off1 0 = r.val) (h11 : off1 1 = 0) (h20 : off2 0 = r.val) (h21 : off2 1 = 512) (u : Fin 1) (o : Fin 1024) :
    k1_pay1 (F := Ideal)
        (k1_pay2 (View.ld x0 (Rect.unit (s := S8x1024) off1 S1x512.size i1)) (View.ld x1 (Rect.unit (s := S1024x1024) ![0, 0] S1024x512.size j1)))
        (k1_pay3 (View.ld x0 (Rect.unit (s := S8x1024) off2 S1x512.size i2)))
        (k1_pay4 (View.ld x0 (Rect.unit (s := S8x1024) off2 S1x512.size i2)) (View.ld x1 (Rect.unit (s := S1024x1024) ![0, 512] S1024x512.size j2)))
        (k1_pay5 (View.ld x0 (Rect.unit (s := S8x1024) off2 S1x512.size i2)) (View.ld x1 (Rect.unit (s := S1024x1024) ![0, 512] S1024x512.size j2)))
        (ix2 u o)
      = rowK (fun i => x0 (ix2 r i)) (fun o' i => x1 (ix2 o' i)) o := by
  rw [row_apply]
  unfold rowK
  have a1 : ∀ k : Fin 512, View.ld (Val := Elt Ideal) (e' := EltTy.f32) x0 (Rect.unit (s := S8x1024) off1 S1x512.size i1) (ix2 (0 : Fin 1) k) = x0 (ix2 r (lo k)) := by
    intro k
    show x0 _ = x0 _
    congr 1
    funext a
    apply Fin.ext
    match a with
    | ⟨0, _⟩ => show off1 0 + 1 * 0 = r.val; omega
    | ⟨1, _⟩ => show off1 1 + 1 * k.val = k.val; omega
  have a2 : ∀ k : Fin 512, View.ld (Val := Elt Ideal) (e' := EltTy.f32) x0 (Rect.unit (s := S8x1024) off2 S1x512.size i2) (ix2 (0 : Fin 1) k) = x0 (ix2 r (hi k)) := by
    intro k
    show x0 _ = x0 _
    congr 1
    funext a
    apply Fin.ext
    match a with
    | ⟨0, _⟩ => show off2 0 + 1 * 0 = r.val; omega
    | ⟨1, _⟩ => show off2 1 + 1 * k.val = 512 + k.val; omega
  have b1 : ∀ (o' : Fin 1024) (k : Fin 512), View.ld (Val := Elt Ideal) (e' := EltTy.f32) x1 (Rect.unit (s := S1024x1024) ![0, 0] S1024x512.size j1) (ix2 o' k) = x1 (ix2 o' (lo k)) := by
    intro o' k
    show x1 _ = x1 _
    congr 1
    funext a
    apply Fin.ext
    match a with
    | ⟨0, _⟩ => show 0 + 1 * o'.val = o'.val; omega
    | ⟨1, _⟩ => show 0 + 1 * k.val = k.val; omega
  have b2 : ∀ (o' : Fin 1024) (k : Fin 512), View.ld (Val := Elt Ideal) (e' := EltTy.f32) x1 (Rect.unit (s := S1024x1024) ![0, 512] S1024x512.size j2) (ix2 o' k) = x1 (ix2 o' (hi k)) := by
    intro o' k
    show x1 _ = x1 _
    congr 1
    funext a
    apply Fin.ext
    match a with
    | ⟨0, _⟩ => show 0 + 1 * o'.val = o'.val; omega
    | ⟨1, _⟩ => show 512 + 1 * k.val = 512 + k.val; omega
  refine congrArg₂ (· + ·) (congrArg (zeroV + ·) (Finset.sum_congr rfl fun k _ => ?_)) (Finset.sum_congr rfl fun k _ => ?_)
  · have e : scoreCol (View.ld (Val := Elt Ideal) (e' := EltTy.f32) x0 (Rect.unit (s := S8x1024) off1 S1x512.size i1)) (View.ld (Val := Elt Ideal) (e' := EltTy.f32) x1 (Rect.unit (s := S1024x1024) ![0, 0] S1024x512.size j1)) k
        = fun o' => scoreK (x1 (ix2 o' (lo k))) (x0 (ix2 r (lo k))) := funext fun o' => by
      unfold scoreCol; rw [a1 k, b1 o' k]
    rw [a1 k, e]
  · have e : scoreCol (View.ld (Val := Elt Ideal) (e' := EltTy.f32) x0 (Rect.unit (s := S8x1024) off2 S1x512.size i2)) (View.ld (Val := Elt Ideal) (e' := EltTy.f32) x1 (Rect.unit (s := S1024x1024) ![0, 512] S1024x512.size j2)) k
        = fun o' => scoreK (x1 (ix2 o' (hi k))) (x0 (ix2 r (hi k))) := funext fun o' => by
      unfold scoreCol; rw [a2 k, b2 o' k]
    rw [a2 k, e]

/-- A store at row `r` whose payload is the row function of that row agrees, at every index of its rectangle, with
    the block function at the place in the block that index names. -/
theorem piece_agrees_of (x0 : FVec Ideal S8x1024 .f32) (x1 : FVec Ideal S1024x1024 .f32) (r : Fin 8)
    (off3 : Fin 2 → Nat) (inb3 : ∀ a, off3 a + S1x1024.size a ≤ S8x1024.size a) (h30 : off3 0 = r.val) (h31 : off3 1 = 0)
    (w : (Rect.unit (s := S8x1024) off3 S1x1024.size inb3).shape.Idx → EReal)
    (hw : ∀ (u : Fin 1) (o : Fin 1024), w (ix2 u o) = rowK (fun i => x0 (ix2 r i)) (fun o' i => x1 (ix2 o' i)) o)
    (x : (Rect.unit (s := S8x1024) off3 S1x1024.size inb3).shape.Idx) :
    w x = blockFn x0 x1 ((Rect.unit (s := S8x1024) off3 S1x1024.size inb3).emb x) := by
  obtain ⟨u, o, rfl⟩ : ∃ (u : Fin 1) (o : Fin 1024), x = ix2 u o := ⟨x 0, x 1, eq_ix2 x⟩
  rw [hw u o]
  refine (blockFn_apply x0 x1 _ r o ?_ ?_).symm
  · show off3 0 + 1 * u.val = r.val; omega
  · show off3 1 + 1 * o.val = o.val; omega

section
variable (c : Dev nD) (i : grid1.Coords) (arg1 : Memref sig .tc .vmem S8x1024 .f32) (harg1 : arg1.IsWhole)
  (arg2 : Memref sig .tc .vmem S1024x1024 .f32) (harg2 : arg2.IsWhole) (arg3 : Memref sig .tc .vmem S8x1024 .f32) (harg3 : arg3.IsWhole)
  (x0 : Vec Ideal S8x1024 .f32) (x1 : Vec Ideal S1024x1024 .f32)

/-- The one store of trip `k` agrees with the block function. -/
theorem trip_piece (k : Fin k1_t1_loop.trips) :
    ∀ p ∈ tripL_k1_t1 (F := Ideal) Variants.none c none i arg1 harg1 arg2 harg2 arg3 harg3 (harg1.unread x0) (harg2.unread x1) k,
      ∀ x : p.1.shape.Idx, p.2 x = blockFn x0 x1 (p.1.emb x) := by
  have hk8 : k.val < 8 := Nat.lt_of_lt_of_le k.isLt k1_t1_abs.2.1
  unfold tripL_k1_t1 trip_k1_t1
  dsimp only
  sl_unfold_words
  simp only [View.readAt_eq_ld, harg1.read_unread, harg2.read_unread]
  intro p hp
  obtain rfl := List.mem_singleton.mp hp
  dsimp only
  exact piece_agrees_of x0 x1 ⟨k.val, hk8⟩ _ _ (row_of_trip k) rfl _
    (fun u o => piece_val x0 x1 ⟨k.val, hk8⟩ _ _ _ _ _ _ (row_of_trip k) rfl (row_of_trip k) rfl u o)

/-- So do all the stores of the trips before `n`. -/
theorem pb_pieces : ∀ n : Nat,
    ∀ p ∈ pb_k1_t1 (F := Ideal) Variants.none c none i arg1 harg1 arg2 harg2 arg3 harg3 (harg1.unread x0) (harg2.unread x1) n,
      ∀ x : p.1.shape.Idx, p.2 x = blockFn x0 x1 (p.1.emb x)
  | 0 => fun p hp => absurd hp List.not_mem_nil
  | n + 1 => fun p hp => by
    rw [pb_k1_t1.eq_2] at hp
    unfold pb_k1_t1Step at hp
    split at hp
    · rename_i h
      rcases List.mem_append.mp hp with h1 | h2
      · exact trip_piece c i arg1 harg1 arg2 harg2 arg3 harg3 x0 x1 ⟨n, h⟩ p h1
      · exact pb_pieces n p h2
    · exact pb_pieces n p hp

/-- What the body leaves in the output block's buffer is the block function of its two input blocks. -/
theorem out_eq : out1_A_2 (F := Ideal) c i arg1 harg1 arg2 harg2 arg3 harg3 x0 x1 = blockFn x0 x1 := by
  unfold out1_A_2
  rw [View.read_writes_eq_canon _ _ _ (cover1_A_2 c i arg1 harg1 arg2 harg2 arg3 harg3 x0 x1)]
  funext y
  refine View.canon_apply_of_pieces (blockFn x0 x1) _ ?_ y (cover1_A_2 c i arg1 harg1 arg2 harg2 arg3 harg3 x0 x1 y)
  unfold kernelRun1_A
  dsimp only
  exact pb_pieces c i arg1 harg1 arg2 harg2 arg3 harg3 x0 x1 _

end

/-! ## From blocks to the result array -/

/-- The result array as a function of the data array `D` and the squared-base array `Q`: at (b, o), the kernel's row
    function of row `b` of `D` against `Q`, at output unit `o`. -/
def resultArr (D : S128x1024.Idx → EReal) (Q : S1024x1024.Idx → EReal) : S128x1024.Idx → EReal :=
  fun j => rowK (fun i => D (ix2 (j 0) i)) (fun o i => Q (ix2 o i)) (j 1)

/-- The printed index maps over the grid: the data and result blocks are at (t, 0), the squared-base block at (0, 0). -/
theorem idx_facts : ∀ t : Fin cfg1.N,
    (win1_0.index t (0 : Fin 2) = t.val ∧ win1_0.index t (1 : Fin 2) = 0)
    ∧ (win1_1.index t (0 : Fin 2) = 0 ∧ win1_1.index t (1 : Fin 2) = 0)
    ∧ (win1_2.index t (0 : Fin 2) = t.val ∧ win1_2.index t (1 : Fin 2) = 0) :=
  (by decide +kernel : ∀ t : Fin grid1.N, _)

section
variable (V : (c : Dev nD) → (b : Ref sig .tc) → Buf (Elt Ideal) ((c : Thread nD τ).loc b))

/-- What point `t` writes back is block `t` (rows 8t … 8t+7) of the result function of the arrays as the region finds them. -/
theorem flushed_eq (c : Dev nD) (t : Fin cfg1.N) :
    (dat1 V c).flushed 2 t = ((cfg1.win 2).blk t).view.read (Elt Ideal) (resultArr (V c main_arg0) (V c main_v0)) := by
  show (cfg1.win 2).cut (grid1.coords t) ((dat1 V c).after 2 t) = _
  rw [after1_2]
  unfold outsAt1
  rw [out_eq c (grid1.coords t) (ms1_0 t) (hs1_0 t) (ms1_1 t) (hs1_1 t) (ms1_2 t) (hs1_2 t) (iblk1 V c 0 t) (iblk1 V c 1 t)]
  obtain ⟨⟨e00, e01⟩, ⟨e10, e11⟩, e20, e21⟩ := idx_facts t
  funext y
  obtain ⟨r, o, rfl⟩ : ∃ (r : Fin 8) (o : Fin 1024), y = ix2 r o := ⟨y 0, y 1, eq_ix2 y⟩
  refine (blockFn_apply (iblk1 V c 0 t) (iblk1 V c 1 t) (ix2 r o) r o rfl rfl).trans ?_
  show _ = resultArr (V c main_arg0) (V c main_v0) (((cfg1.win 2).blk t).view.emb (ix2 r o))
  unfold resultArr
  have hd : (fun i : Fin 1024 => iblk1 V c 0 t (ix2 r i))
      = fun i => V c main_arg0 (ix2 ((((cfg1.win 2).blk t).view.emb (ix2 r o)) 0) i) := funext fun i => by
    show V c main_arg0 _ = V c main_arg0 _
    congr 1
    funext a
    apply Fin.ext
    match a with
    | ⟨0, _⟩ => show win1_0.index t (0 : Fin 2) * 8 + 1 * r.val = win1_2.index t (0 : Fin 2) * 8 + 1 * r.val; omega
    | ⟨1, _⟩ => show win1_0.index t (1 : Fin 2) * 1024 + 1 * i.val = i.val; omega
  have hq : (fun (o' i : Fin 1024) => iblk1 V c 1 t (ix2 o' i)) = fun o' i => V c main_v0 (ix2 o' i) :=
    funext fun o' => funext fun i => by
      show V c main_v0 _ = V c main_v0 _
      congr 1
      funext a
      apply Fin.ext
      match a with
      | ⟨0, _⟩ => show win1_1.index t (0 : Fin 2) * 1024 + 1 * o'.val = o'.val; omega
      | ⟨1, _⟩ => show win1_1.index t (1 : Fin 2) * 1024 + 1 * i.val = i.val; omega
  have ho : (((cfg1.win 2).blk t).view.emb (ix2 r o)) 1 = o :=
    Fin.ext (by show win1_2.index t (1 : Fin 2) * 1024 + 1 * o.val = o.val; omega)
  rw [hd, hq, ho]

/-- An index of the result array is in point `t`'s block iff each coordinate is in the block's range on its axis. -/
theorem mem_blk (t : Fin cfg1.N) (i : S128x1024.Idx) :
    i ∈ ((cfg1.win 2).blk t).view.set ↔ ∀ a : Fin 2, win1_2.index t a * S8x1024.size a ≤ (i a).val ∧ (i a).val < win1_2.index t a * S8x1024.size a + S8x1024.size a := by
  show i ∈ ((View.whole main_v1).slice (win1_2.rect t)).set ↔ _
  rw [View.set_slice_whole, Rect.mem_set_unit]
  exact Iff.rfl

/-- Row `b` of the result lies in the block of point `b / 8`. -/
theorem cover (i : S128x1024.Idx) : ∃ t : Fin cfg1.N, (cfg1.win 2).flush t = true ∧ i ∈ ((cfg1.win 2).blk t).view.set := by
  have hN : cfg1.N = 16 := N_1
  have hi0 : (i 0).val < 128 := (i 0).isLt
  have hi1 : (i 1).val < 1024 := (i 1).isLt
  let t : Fin cfg1.N := ⟨(i 0).val / 8, by rw [hN]; omega⟩
  obtain ⟨-, -, e20, e21⟩ := idx_facts t
  have ht : t.val = (i 0).val / 8 := rfl
  refine ⟨t, flush1_2 t, ?_⟩
  rw [mem_blk]
  intro a
  match a with
  | ⟨0, _⟩ => show win1_2.index t (0 : Fin 2) * 8 ≤ (i 0).val ∧ (i 0).val < win1_2.index t (0 : Fin 2) * 8 + 8; omega
  | ⟨1, _⟩ => show win1_2.index t (1 : Fin 2) * 1024 ≤ (i 1).val ∧ (i 1).val < win1_2.index t (1 : Fin 2) * 1024 + 1024; omega

/-- The result array after the region: the result function of `data` and the squared-base array as the region finds them. -/
theorem final (c : Dev nD) : (dat1 V c).arrAt 2 cfg1.N = resultArr (V c main_arg0) (V c main_v0) :=
  (dat1 V c).arrAt_eq_of_cover 2 _ (fun t _ => flushed_eq V c t) cover

end

end Cert.KernelIdeal.Region1

end
-- ==== Proof.KernelValue.lean ====
/-
  The idealized kernel's result as one function of the argument arrays.

  `Gen.W2` at the result buffer is what the second region's write-backs leave; that region finds `data` as launched
  and the intermediate buffer at what the first region's write-backs left, which is the squared parameter
  combination of the six parameter arrays as launched. So the result is the kernel's row function of each row
  of `data` against that array.
-/
import proofs.«101975_j82119774699540_2_alg».proof.Proof.KernelRun
import proofs.«101975_j82119774699540_2_alg».proof.Proof.Region0
import proofs.«101975_j82119774699540_2_alg».proof.Proof.Region1

set_option maxRecDepth 16384

noncomputable section

namespace Cert.KernelIdeal.Result

open Cert.KernelIdeal Cert.KernelIdeal.Gen
open Idealize.ShloMosaic Idealize.ShloMosaic.TcCoe Idealize.SL.Sem

variable (m : (ℓ : Loc nD τ sig) → Buf (Elt Ideal) ℓ) (ρ : Dev nD → PrngReg)

/-- The result array, from the launch memory. -/
def resultOf (c : Dev nD) : S128x1024.Idx → EReal :=
  Region1.resultArr (m ((c : Thread nD τ).loc main_arg0))
    (Region0.sqBaseArr (m ((c : Thread nD τ).loc main_arg1)) (m ((c : Thread nD τ).loc main_arg2)) (m ((c : Thread nD τ).loc main_arg3))
      (m ((c : Thread nD τ).loc main_arg4)) (m ((c : Thread nD τ).loc main_arg5)) (m ((c : Thread nD τ).loc main_arg6)))

/-- What the second region's write-backs leave in the result buffer is that function. -/
theorem result_eq (c : Dev nD) : W2 m ρ c (Proc.devRef .tc main_v1) = resultOf m c := by
  have h1 : W2 m ρ c (Proc.devRef .tc main_v1) = (dat1 (V1 m ρ) c).arrAt 2 cfg1.N := W2_arr m ρ c 2
  have ha : V1 m ρ c main_arg0 = m ((c : Thread nD τ).loc main_arg0) := W1_of_ne m ρ c main_arg0 (by decide)
  have hv : V1 m ρ c main_v0 = (dat0 (V0 m ρ) c).arrAt 6 cfg0.N := W1_arr m ρ c 6
  rw [h1, Region1.final (V1 m ρ) c, ha, hv, Region0.final (V0 m ρ) c]
  rfl

/-- The run, read: the result buffer at `resultOf`, the arguments as launched. -/
theorem run_value : θ_run defs (onTc (τ := τ) (main (F := Ideal))) ⟨m, fun _ => 0, ρ⟩ (fun r => ∀ c : Dev nD,
      r.2.mem ((c.tc : Thread nD τ).loc main_v1) = resultOf m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun r h c => ⟨(h c).1.trans (result_eq m ρ c), (h c).2⟩) (run (F := Ideal) m ρ)

end Cert.KernelIdeal.Result

end
-- ==== Proof.RefValue.lean ====
/-
  The reference's result, read at an index on the extended reals.

  The reference forms, for every (b, o, i), the score 1/√((a(o,i)·σ(d(b,i)))² + ε), takes the softmax of the scores
  along `o`, multiplies by d(b,i) and sums over `i`. Its printed program is a chain of pointwise operations,
  broadcasts and three reductions; the generated read-at-an-index lemmas take each stage to its operands at an
  index. This module composes them over explicit coordinates (b, o, i) into the closed form
  `zeroV + Σ_i termR …`, reading the one reduction with a `maximum` body by hand as a fold of `max`.
-/
import proofs.«101975_j82119774699540_2_alg».proof.Proof.Gen.ReferenceIdeal.Read
import proofs.«101975_j82119774699540_2_alg».proof.Proof.Spec
import Idealize.ShloMosaic.Lib.ValueIdx
import Idealize.ShloMosaic.PureOps.Ideal.Laws

set_option maxRecDepth 16384

noncomputable section

namespace Cert.ReferenceIdeal.RefValue

open Cert.ReferenceIdeal Cert.ReferenceIdeal.Gen Cert.ReferenceIdeal.Read Cert.Softrow
open Idealize.ShloMosaic Idealize.ShloMosaic.ValueIdx

variable (x0 : (⟨S128x1024, .f32⟩ : BufTy).Contents (Elt Ideal))
  (x1 x2 x3 x4 x5 x6 : (⟨S1x1024x1024, .f32⟩ : BufTy).Contents (Elt Ideal))

/-- The parameter combination at a parameter index. -/
theorem base_apply (j : S1x1024x1024.Idx) :
    val_main_v7 (F := Ideal) x1 x2 x3 x4 x5 x6 j = base (x1 j) (x2 j) (x3 j) (x4 j) (x5 j) (x6 j) := by
  rw [val_main_v7_apply, val_main_v6_apply, val_main_v3_apply, val_main_v1_apply, val_main_v5_apply, val_main_v4_apply,
    val_main_cst_apply, val_main_v2_apply]
  rfl

/-- The logistic function of the data entry, spelt as the reference spells it. -/
theorem sigma_apply (j : S128x1x1024.Idx) :
    val_main_v13 (F := Ideal) x0 j = Ideal.div oneV (oneV + Ideal.exp (-(x0 (idx_main_v0 j)))) := by
  rw [val_main_v13_apply, val_main_v12_apply, val_main_cst_1_apply, val_main_v11_apply, val_main_v10_apply,
    val_main_cst_0_apply, val_main_v9_apply, val_main_v8_apply, val_main_v0_apply]
  rfl

/-- The score at (b, o, i). -/
theorem score_apply (b : Fin 128) (o i : Fin 1024) :
    val_main_v22 (F := Ideal) x0 x1 x2 x3 x4 x5 x6 (ix3 b o i)
      = scoreR (base (x1 (ix3 (0 : Fin 1) o i)) (x2 (ix3 (0 : Fin 1) o i)) (x3 (ix3 (0 : Fin 1) o i)) (x4 (ix3 (0 : Fin 1) o i))
          (x5 (ix3 (0 : Fin 1) o i)) (x6 (ix3 (0 : Fin 1) o i))) (x0 (ix2 b i)) := by
  have e14 : idx_main_v14 (ix3 b o i) = ix3 (0 : Fin 1) o i :=
    funext fun a => Fin.ext (by match a with | ⟨0, _⟩ => rfl | ⟨1, _⟩ => rfl | ⟨2, _⟩ => rfl)
  have e0 : idx_main_v0 (idx_main_v15 (ix3 b o i)) = ix2 b i :=
    funext fun a => Fin.ext (by
      have hb := b.isLt
      have hi := i.isLt
      match a with
      | ⟨0, _⟩ => show ((b.val * 1 + 0) * 1024 + i.val) / 1024 = b.val; omega
      | ⟨1, _⟩ => show ((b.val * 1 + 0) * 1024 + i.val) % 1024 = i.val; omega)
  rw [val_main_v22_apply, val_main_v21_apply, val_main_cst_3_apply, val_main_v20_apply, val_main_v19_apply,
    val_main_v18_apply, val_main_cst_2_apply, val_main_v17_apply, val_main_v16_apply, val_main_v14_apply, val_main_v15_apply,
    base_apply, sigma_apply, e14, e0]
  rfl

/-! ## The softmax along the output-unit axis, and the final sum -/

theorem red1 : S128x1024x1024.Reduces [1] S128x1024 := by decide

/-- The index the reduction over the middle axis inserts at output unit `o'`. -/
theorem lift1 (b : Fin 128) (i o' : Fin 1024) : red1.lift (ix2 b i) o' = ix3 b o' i :=
  funext fun a => Fin.ext (by match a with | ⟨0, _⟩ => rfl | ⟨1, _⟩ => rfl | ⟨2, _⟩ => rfl)

/-- The column maximum at (b, i): the fold of `max` over the output units from −∞, taken once more against −∞. -/
theorem max_apply (b : Fin 128) (i : Fin 1024) :
    val_main_v25 (F := Ideal) x0 x1 x2 x3 x4 x5 x6 (ix2 b i)
      = max negInf (colMax (fun o' : Fin 1024 => val_main_v22 (F := Ideal) x0 x1 x2 x3 x4 x5 x6 (ix3 b o' i))) := by
  rw [val_main_v25_apply, val_main_v24_apply, val_main_cst_5_apply]
  unfold val_main_v23
  rw [Host.reduce_eq_fold_single FloatOps.maximumf _ _ reducesTo_S128x1024x1024_S128x1024_d1 red1 h_S_ (ix2 b i)]
  show max negInf ((Finset.univ : Finset (Fin 1024)).fold max negInf
      (fun o' => val_main_v22 (F := Ideal) x0 x1 x2 x3 x4 x5 x6 (red1.lift (ix2 b i) o'))) = _
  unfold colMax
  exact congrArg (fun f : Fin 1024 → EReal => max negInf ((Finset.univ : Finset (Fin 1024)).fold max negInf f))
    (funext fun o' => congrArg (val_main_v22 (F := Ideal) x0 x1 x2 x3 x4 x5 x6) (lift1 b i o'))

/-- A shifted exponential at (b, o, i). -/
theorem exp_apply (b : Fin 128) (o i : Fin 1024) :
    val_main_v29 (F := Ideal) x0 x1 x2 x3 x4 x5 x6 (ix3 b o i)
      = Ideal.exp (val_main_v22 (F := Ideal) x0 x1 x2 x3 x4 x5 x6 (ix3 b o i) - val_main_v25 (F := Ideal) x0 x1 x2 x3 x4 x5 x6 (ix2 b i)) := by
  have e : idx_main_v26 (idx_main_v27 (ix3 b o i)) = ix2 b i :=
    funext fun a => Fin.ext (by match a with | ⟨0, _⟩ => rfl | ⟨1, _⟩ => rfl)
  rw [val_main_v29_apply, val_main_v28_apply, val_main_v27_apply, val_main_v26_apply, e]
  rfl

/-- The column sum at (b, i), from the zero word's value. -/
theorem sum_apply (b : Fin 128) (i : Fin 1024) :
    val_main_v30 (F := Ideal) x0 x1 x2 x3 x4 x5 x6 (ix2 b i)
      = zeroV + ∑ o' : Fin 1024, val_main_v29 (F := Ideal) x0 x1 x2 x3 x4 x5 x6 (ix3 b o' i) := by
  rw [val_main_v30_apply]
  refine congrArg₂ (· + ·) rfl (Finset.sum_congr rfl fun o' _ => congrArg _ ?_)
  exact funext fun a => Fin.ext (by match a with | ⟨0, _⟩ => rfl | ⟨1, _⟩ => rfl | ⟨2, _⟩ => rfl)

/-- The score column of input position `i` of data row `b`, as the reference forms it. -/
def scoreColR (b : Fin 128) (i : Fin 1024) : Fin 1024 → EReal := fun o' =>
  scoreR (base (x1 (ix3 (0 : Fin 1) o' i)) (x2 (ix3 (0 : Fin 1) o' i)) (x3 (ix3 (0 : Fin 1) o' i)) (x4 (ix3 (0 : Fin 1) o' i))
    (x5 (ix3 (0 : Fin 1) o' i)) (x6 (ix3 (0 : Fin 1) o' i))) (x0 (ix2 b i))

/-- The reference's result at (b, o): the zero word's value plus the sum over input positions of the reference's term. -/
theorem result_apply (b : Fin 128) (o : Fin 1024) :
    val_main_v36 (F := Ideal) x0 x1 x2 x3 x4 x5 x6 (ix2 b o)
      = zeroV + ∑ i : Fin 1024, termR (x0 (ix2 b i)) (scoreColR x0 x1 x2 x3 x4 x5 x6 b i) o := by
  rw [val_main_v36_apply]
  refine congrArg₂ (· + ·) rfl (Finset.sum_congr rfl fun i _ => ?_)
  have e36 : idx_main_v36 (ix2 b o) i = ix3 b o i :=
    funext fun a => Fin.ext (by match a with | ⟨0, _⟩ => rfl | ⟨1, _⟩ => rfl | ⟨2, _⟩ => rfl)
  have e32 : idx_main_v31 (idx_main_v32 (ix3 b o i)) = ix2 b i :=
    funext fun a => Fin.ext (by match a with | ⟨0, _⟩ => rfl | ⟨1, _⟩ => rfl)
  have e34 : idx_main_v0 (idx_main_v34 (ix3 b o i)) = ix2 b i :=
    funext fun a => Fin.ext (by
      have hb := b.isLt
      have hi := i.isLt
      match a with
      | ⟨0, _⟩ => show ((b.val * 1 + 0) * 1024 + i.val) / 1024 = b.val; omega
      | ⟨1, _⟩ => show ((b.val * 1 + 0) * 1024 + i.val) % 1024 = i.val; omega)
  have hs : (fun o' : Fin 1024 => val_main_v22 (F := Ideal) x0 x1 x2 x3 x4 x5 x6 (ix3 b o' i)) = scoreColR x0 x1 x2 x3 x4 x5 x6 b i :=
    funext fun o' => score_apply x0 x1 x2 x3 x4 x5 x6 b o' i
  rw [e36, val_main_v35_apply, val_main_v34_apply, val_main_v0_apply, e34, val_main_v33_apply, val_main_v32_apply,
    val_main_v31_apply, e32, sum_apply, exp_apply, max_apply, hs]
  unfold termR
  have he : ∀ o' : Fin 1024, val_main_v29 (F := Ideal) x0 x1 x2 x3 x4 x5 x6 (ix3 b o' i)
      = Ideal.exp (scoreColR x0 x1 x2 x3 x4 x5 x6 b i o' - max negInf (colMax (scoreColR x0 x1 x2 x3 x4 x5 x6 b i))) := fun o' => by
    rw [exp_apply, max_apply, hs]
    exact congrArg (fun z => Ideal.exp (z - max negInf (colMax (scoreColR x0 x1 x2 x3 x4 x5 x6 b i)))) (congrFun hs o')
  simp only [he]
  exact congrArg (fun z => x0 (ix2 b i) * Ideal.div (Ideal.exp (z - max negInf (colMax (scoreColR x0 x1 x2 x3 x4 x5 x6 b i)))) _) (congrFun hs o)

end Cert.ReferenceIdeal.RefValue

end
-- ==== Proof.Algebra.lean ====
/-
  The law that joins the two programs, on the extended reals.

  Kernel and reference differ in three places. (1) The kernel squares the parameter combination `a` first and
  multiplies by σ², the reference squares a·σ: the same number, since multiplication of extended reals is
  commutative and associative. (2) The kernel takes a reciprocal square root where the reference divides 1 by a
  square root: the same wherever the argument is positive, and it is at least ε here. (3) The kernel divides the
  data entry by the softmax denominator, the reference divides the exponential: both are a product with the
  denominator's inverse as soon as the denominator is not zero, and it is a sum of exponentials of finite numbers.
  Finally the kernel adds the input positions in two halves. None of this needs the inputs to be finite.
-/
import proofs.«101975_j82119774699540_2_alg».proof.Proof.Spec
import Mathlib.Data.EReal.Inv
import Mathlib.Algebra.BigOperators.Fin

noncomputable section

namespace Cert.Softrow

open Idealize.ShloMosaic

/-! ## The constants -/

theorem oneV_eq : oneV = 1 := by
  simp [oneV, Ideal.ofBits, Ideal.ieee, -EReal.coe_mul]; norm_num

theorem zeroV_eq : zeroV = 0 := by
  simp [zeroV, Ideal.ofBits, Ideal.ieee]

theorem negInf_eq : negInf = ⊥ := by
  simp [negInf, Ideal.ofBits, Ideal.ieee]

/-- ε is a positive real. -/
theorem eps_eq : ∃ r : ℝ, 0 < r ∧ eps = (r : EReal) := by
  refine ⟨14073749 * (2 : ℝ) ^ (-47 : ℤ), by positivity, ?_⟩
  simp [eps, Ideal.ofBits, Ideal.ieee, -EReal.coe_mul]

/-! ## Squares, the reciprocal square root, the exponential -/

/-- A square is never negative, at the infinities too. -/
theorem mul_self_nonneg' (x : EReal) : 0 ≤ x * x := by
  induction x using EReal.rec with
  | bot => simp
  | top => simp
  | coe r => rw [← EReal.coe_mul]; exact_mod_cast mul_self_nonneg r

/-- A non-negative extended real plus a positive real is positive. -/
theorem add_eps_pos {t : EReal} (ht : 0 ≤ t) {e : ℝ} (he : 0 < e) : 0 < t + (e : EReal) := by
  induction t using EReal.rec with
  | bot => exact absurd ht (by simp)
  | top => rw [EReal.top_add_coe]; exact EReal.zero_lt_top
  | coe r =>
    have hr : 0 ≤ r := by exact_mod_cast ht
    rw [← EReal.coe_add]
    exact_mod_cast add_pos_of_nonneg_of_pos hr he

/-- On a positive argument the reciprocal square root is 1 over the square root, and is a non-negative real. -/
theorem rsqrt_of_pos {y : EReal} (hy : 0 < y) :
    Ideal.rsqrt y = Ideal.div 1 (Ideal.sqrt y) ∧ 0 ≤ Ideal.rsqrt y ∧ Ideal.rsqrt y ≠ ⊤ := by
  induction y using EReal.rec with
  | bot => exact absurd hy (not_lt.mpr bot_le)
  | top =>
    refine ⟨?_, ?_, ?_⟩
    · rw [Ideal.rsqrt_top, Ideal.sqrt_top, Ideal.div, if_neg EReal.top_ne_zero, EReal.inv_top, mul_zero]
    · rw [Ideal.rsqrt_top]
    · rw [Ideal.rsqrt_top]; exact EReal.zero_ne_top
  | coe r =>
    have hr : 0 < r := by exact_mod_cast hy
    have hs : 0 < Real.sqrt r := Real.sqrt_pos.mpr hr
    have e : Ideal.rsqrt (r : EReal) = (((Real.sqrt r)⁻¹ : ℝ) : EReal) := by
      rw [Ideal.rsqrt_coe, if_neg (not_lt.mpr hr.le), if_neg hr.ne']
    refine ⟨?_, ?_, ?_⟩
    · rw [e, Ideal.sqrt_coe, if_neg (not_lt.mpr hr.le), Ideal.div, if_neg (by exact_mod_cast hs.ne'), one_mul, ← EReal.coe_inv]
    · rw [e]; exact_mod_cast (inv_pos.mpr hs).le
    · rw [e]; exact EReal.coe_ne_top _

theorem exp_nonneg' (x : EReal) : 0 ≤ Ideal.exp x := by
  induction x using EReal.rec with
  | bot => rw [Ideal.exp_bot]
  | top => rw [Ideal.exp_top]; exact le_top
  | coe r => rw [Ideal.exp_coe]; exact_mod_cast (Real.exp_pos r).le

theorem exp_ne_zero {x : EReal} (hx : x ≠ ⊥) : Ideal.exp x ≠ 0 := by
  induction x using EReal.rec with
  | bot => exact absurd rfl hx
  | top => rw [Ideal.exp_top]; exact EReal.top_ne_zero
  | coe r => rw [Ideal.exp_coe]; exact_mod_cast (Real.exp_pos r).ne'

theorem sub_ne_bot {x y : EReal} (hx : x ≠ ⊥) (hy : y ≠ ⊤) : x - y ≠ ⊥ := by
  rw [sub_eq_add_neg]
  intro h
  rcases EReal.add_eq_bot_iff.mp h with h | h
  · exact hx h
  · exact hy (EReal.neg_eq_bot_iff.mp h)

/-! ## The two scores are one number, a non-negative real -/

theorem score_eq (a d : EReal) :
    scoreK (a * a) d = scoreR a d ∧ 0 ≤ scoreK (a * a) d ∧ scoreK (a * a) d ≠ ⊤ := by
  obtain ⟨e, he, hee⟩ := eps_eq
  have hl : Ideal.div oneV (oneV + Ideal.exp (-d)) = Ideal.logistic d := by rw [oneV_eq]; rfl
  have ht : 0 ≤ a * Ideal.logistic d * (a * Ideal.logistic d) := mul_self_nonneg' _
  have hy : 0 < a * Ideal.logistic d * (a * Ideal.logistic d) + eps := by rw [hee]; exact add_eps_pos ht he
  have hq : a * a * (Ideal.logistic d * Ideal.logistic d) = a * Ideal.logistic d * (a * Ideal.logistic d) :=
    mul_mul_mul_comm a a _ _
  obtain ⟨h1, h2, h3⟩ := rsqrt_of_pos hy
  unfold scoreK scoreR
  rw [hl, hq, oneV_eq]
  exact ⟨h1, h2, h3⟩

/-! ## The softmax denominator is not zero, so the division may sit on either factor -/

variable {O : Nat}

theorem colSum_ne_zero (z : Fin O → EReal) (o0 : Fin O) (hz : ∀ o, 0 ≤ z o ∧ z o ≠ ⊤) : colSum z ≠ 0 := by
  unfold colSum
  intro h
  have hall := (Finset.sum_eq_zero_iff_of_nonneg (fun o _ => exp_nonneg' _)).mp h o0 (Finset.mem_univ _)
  refine exp_ne_zero ?_ hall
  have hM : colMax z ≠ ⊤ := by
    unfold colMax
    have hlt : (Finset.univ : Finset (Fin O)).fold max negInf z < ⊤ := by
      rw [Finset.fold_max_lt]
      exact ⟨by rw [negInf_eq]; exact bot_lt_top, fun o _ => lt_top_iff_ne_top.mpr (hz o).2⟩
    exact hlt.ne
  exact sub_ne_bot (fun hb => absurd (hz o0).1 (by rw [hb]; simp)) hM

theorem term_eq (d : EReal) (z : Fin O → EReal) (o : Fin O) (hs : colSum z ≠ 0) : termK d z o = termR d z o := by
  unfold termK termR
  have hm : max negInf (colMax z) = colMax z := by rw [negInf_eq]; exact max_eq_right bot_le
  rw [hm, zeroV_eq, zero_add]
  show Ideal.div d (colSum z) * colExp z o = d * Ideal.div (colExp z o) (colSum z)
  unfold Ideal.div
  rw [if_neg hs, if_neg hs, mul_assoc, mul_comm (colSum z)⁻¹]

/-! ## A row: the two halves, and the kernel's row against the reference's sum -/

theorem sum_halves (f : Fin 1024 → EReal) :
    ∑ i : Fin 1024, f i = ∑ k : Fin 512, f (lo k) + ∑ k : Fin 512, f (hi k) :=
  Fin.sum_univ_add (a := 512) (b := 512) f

/-- The kernel's row function against the squares `a·a` is the reference's sum over the input positions. -/
theorem row_eq (d : Fin 1024 → EReal) (a : Fin 1024 → Fin 1024 → EReal) (o : Fin 1024) :
    rowK d (fun o' i => a o' i * a o' i) o
      = zeroV + ∑ i : Fin 1024, termR (d i) (fun o' => scoreR (a o' i) (d i)) o := by
  have key : ∀ i : Fin 1024, termK (d i) (fun o' => scoreK (a o' i * a o' i) (d i)) o
      = termR (d i) (fun o' => scoreR (a o' i) (d i)) o := fun i => by
    have hz : (fun o' => scoreK (a o' i * a o' i) (d i)) = fun o' => scoreR (a o' i) (d i) :=
      funext fun o' => (score_eq _ _).1
    have hb : ∀ o', 0 ≤ scoreK (a o' i * a o' i) (d i) ∧ scoreK (a o' i * a o' i) (d i) ≠ ⊤ :=
      fun o' => (score_eq _ _).2
    rw [term_eq _ _ _ (colSum_ne_zero _ o hb), hz]
  unfold rowK
  simp only [key]
  rw [sum_halves (fun i => termR (d i) (fun o' => scoreR (a o' i) (d i)) o), add_assoc]

end Cert.Softrow

end
-- ==== Proof.Bridge.lean ====
/-
  The reference's result is the kernel's result function of the same arrays.

  At (b, o) the reference's term is the zero word's value plus the sum over the input positions of its softmax
  term; the kernel's is its row function of row `b` of `data` against the squared parameter combination. The
  row law of the algebra module makes them equal, index by index.
-/
import proofs.«101975_j82119774699540_2_alg».proof.Proof.RefValue
import proofs.«101975_j82119774699540_2_alg».proof.Proof.Algebra
import proofs.«101975_j82119774699540_2_alg».proof.Proof.Region0
import proofs.«101975_j82119774699540_2_alg».proof.Proof.Region1

set_option maxRecDepth 16384

noncomputable section

namespace Cert.Bridge

open Cert.Softrow Idealize.ShloMosaic Idealize.ShloMosaic.ValueIdx

theorem ref_is_result (x0 : (⟨Cert.ReferenceIdeal.S128x1024, .f32⟩ : BufTy).Contents (Elt Ideal))
    (x1 x2 x3 x4 x5 x6 : (⟨Cert.ReferenceIdeal.S1x1024x1024, .f32⟩ : BufTy).Contents (Elt Ideal)) :
    Cert.ReferenceIdeal.Read.val_main_v36 (F := Ideal) x0 x1 x2 x3 x4 x5 x6
      = Cert.KernelIdeal.Region1.resultArr x0 (Cert.KernelIdeal.Region0.sqBaseArr x1 x2 x3 x4 x5 x6) := by
  funext j
  obtain ⟨b, o, rfl⟩ : ∃ (b : Fin 128) (o : Fin 1024), j = ix2 b o := ⟨j 0, j 1, eq_ix2 j⟩
  rw [Cert.ReferenceIdeal.RefValue.result_apply]
  exact (row_eq (fun i => x0 (ix2 b i))
    (fun o' i => base (x1 (ix3 (0 : Fin 1) o' i)) (x2 (ix3 (0 : Fin 1) o' i)) (x3 (ix3 (0 : Fin 1) o' i)) (x4 (ix3 (0 : Fin 1) o' i))
      (x5 (ix3 (0 : Fin 1) o' i)) (x6 (ix3 (0 : Fin 1) o' i))) o).symm

end Cert.Bridge

end
-- ==== Proof.lean ====
/-
  The certificate of the kernel against its reference.

  The kernel computes, for every data row b and output unit o, the sum over input positions i of d(b,i) times the
  softmax weight (along o) of the score 1/√((a(o,i)·σ(d(b,i)))² + ε), a(o,i) = (ix/iy + la)·(1 + lm) − ox/oy, in two
  pallas_calls: the first stores a², the second forms the scores as rsqrt(a²·σ² + ε), divides the data entry by the
  softmax denominator and contracts with the exponentials, 512 input positions at a time. The reference does the
  same with jnp operations over the whole (b, o, i) array.

  The three frames are the generated frame certificates (the reference's is its generated run with the result
  dropped). The ideal pass rewrote nothing, so `preserves` is trivial. For `algebraic`, the kernel's result
  array is read off the generated frame as one function of the argument arrays (Proof/KernelRun, Region0, Region1,
  KernelValue), the reference's off its generated run and read-at-an-index lemmas (Proof/RefValue), and the two
  functions are equal on the extended reals by the laws of Proof/Algebra (Proof/Bridge). The inputs' finiteness is
  not used.
-/
import proofs.«101975_j82119774699540_2_alg».proof.Defs
import proofs.«101975_j82119774699540_2_alg».proof.Proof.Gen.Kernel
import proofs.«101975_j82119774699540_2_alg».proof.Proof.Gen.Kernel.Skeleton
import proofs.«101975_j82119774699540_2_alg».proof.Proof.Gen.Kernel.Loops
import proofs.«101975_j82119774699540_2_alg».proof.Proof.Gen.Kernel.Launch
import proofs.«101975_j82119774699540_2_alg».proof.Proof.Gen.Kernel.Points
import proofs.«101975_j82119774699540_2_alg».proof.Proof.Gen.Kernel.Frame
import proofs.«101975_j82119774699540_2_alg».proof.Proof.Gen.KernelIdeal
import proofs.«101975_j82119774699540_2_alg».proof.Proof.Gen.KernelIdeal.Skeleton
import proofs.«101975_j82119774699540_2_alg».proof.Proof.Gen.KernelIdeal.Loops
import proofs.«101975_j82119774699540_2_alg».proof.Proof.Gen.KernelIdeal.Launch
import proofs.«101975_j82119774699540_2_alg».proof.Proof.Gen.KernelIdeal.Points
import proofs.«101975_j82119774699540_2_alg».proof.Proof.Gen.KernelIdeal.Frame
import proofs.«101975_j82119774699540_2_alg».proof.Proof.Gen.ReferenceIdeal
import proofs.«101975_j82119774699540_2_alg».proof.Proof.Gen.Pre_finite_inputs
import proofs.«101975_j82119774699540_2_alg».proof.Proof.Gen.ReferenceIdeal.Read
import proofs.«101975_j82119774699540_2_alg».proof.Proof.KernelValue
import proofs.«101975_j82119774699540_2_alg».proof.Proof.Bridge
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ

theorem frame_kernelIdeal : Cert.frame_KernelIdeal := fun m ρ _ => Cert.KernelIdeal.Gen.frame m ρ

theorem frame_referenceIdeal : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- Both runs end with the result buffer at the kernel's result function of the (agreeing) argument arrays. -/
theorem algebraic : Cert.algebraic_KernelIdeal_ReferenceIdeal := by
  intro m ρ m' ρ' _ hagree
  refine ⟨fun c => Cert.KernelIdeal.Result.resultOf m c, Cert.KernelIdeal.Result.run_value m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v36_eq, (hagree c).1, (hagree c).2.1, (hagree c).2.2.1, (hagree c).2.2.2.1,
    (hagree c).2.2.2.2.1, (hagree c).2.2.2.2.2.1, (hagree c).2.2.2.2.2.2]
  exact Cert.Bridge.ref_is_result _ _ _ _ _ _ _

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
